-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x256x256x2 : Shape := ⟨4, ![8, 256, 256, 2]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x256x256x2 : S_.BroadcastsInDim S8x256x256x2 (![] : Fin 0 → Fin S8x256x256x2.rank)
  reducesTo_S8x256x256x2_S_d0_1_2_3 : S8x256x256x2.ReducesTo [0, 1, 2, 3] S_

variable [Facts]

def fn {F : FTy → Type} [FloatOps F] (main_arg0 : FVec F S8x64x256x256 .f32) (main_arg1 : FVec F S8x256x256x2 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x256x256x2 .f32 := Host.absf main_arg1
  let main_cst_0 : FVec F S_ .f32 := constant S_ .f32 0x7F800000#32
  let main_v5 : FVec F S8x256x256x2 .f32 := broadcastInDim S8x256x256x2 ![] bcast_S_S8x256x256x2 main_cst_0
  let main_v6 : IVec S8x256x256x2 1 := cmpf .olt main_v4 main_v5
  let main_c_1 : IVec S_ 1 := constantI S_ 1 1#1
  let main_v7 : IVec S_ 1 := (fun x v => Host.reduce IntOp.andi x v reducesTo_S8x256x256x2_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x256x256x2 : Shape := ⟨4, ![8, 256, 256, 2]⟩
abbrev S8x256x256x1 : Shape := ⟨4, ![8, 256, 256, 1]⟩
abbrev S8x256x256 : Shape := ⟨3, ![8, 256, 256]⟩
abbrev S_ : Shape := ⟨0, ![]⟩
abbrev S1x4x256x256 : Shape := ⟨4, ![1, 4, 256, 256]⟩
abbrev S1x8x256 : Shape := ⟨3, ![1, 8, 256]⟩
abbrev S1x4x8x256 : Shape := ⟨4, ![1, 4, 8, 256]⟩
abbrev S8x256 : Shape := ⟨2, ![8, 256]⟩
abbrev S2048 : Shape := ⟨1, ![2048]⟩
abbrev S4x256x256 : Shape := ⟨3, ![4, 256, 256]⟩
abbrev S1024x256 : Shape := ⟨2, ![1024, 256]⟩
abbrev S256x2048 : Shape := ⟨2, ![256, 2048]⟩
abbrev S1x2048 : Shape := ⟨2, ![1, 2048]⟩
abbrev S1024x2048 : Shape := ⟨2, ![1024, 2048]⟩
abbrev S4x256x2048 : Shape := ⟨3, ![4, 256, 2048]⟩
abbrev S1x256x2048 : Shape := ⟨3, ![1, 256, 2048]⟩
abbrev S4x2048 : Shape := ⟨2, ![4, 2048]⟩
abbrev S4x8x256 : Shape := ⟨3, ![4, 8, 256]⟩

abbrev nBuf : Space → Nat
  | .hbm => 136
  | .vmem => 20
  | .smem => 0
  | _ => 0

abbrev hbmTy0_0 (i : Nat) : BufTy := match i % 128 with
  | 0 => ⟨S8x64x256x256, .f32⟩
  | 1 => ⟨S8x256x256x2, .f32⟩
  | 2 => ⟨S8x256x256x1, .f32⟩
  | 3 => ⟨S8x256x256, .f32⟩
  | 4 => ⟨S8x256x256x1, .f32⟩
  | 5 => ⟨S8x256x256, .f32⟩
  | 6 => ⟨S_, .f32⟩
  | 7 => ⟨S8x256x256, .f32⟩
  | 8 => ⟨S8x256x256, .f32⟩
  | 9 => ⟨S_, .f32⟩
  | 10 => ⟨S8x256x256, .f32⟩
  | 11 => ⟨S8x256x256, .f32⟩
  | 12 => ⟨S_, .f32⟩
  | 13 => ⟨S8x256x256, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S_, .f32⟩
  | 25 => ⟨S8x256x256, .f32⟩
  | 26 => ⟨S8x256x256, .f32⟩
  | 27 => ⟨S_, .f32⟩
  | 28 => ⟨S8x256x256, .f32⟩
  | 29 => ⟨S8x256x256, .f32⟩
  | 30 => ⟨S8x256x256, .f32⟩
  | 31 => ⟨S8x256x256, .f32⟩
  | 32 => ⟨S_, .f32⟩
  | 33 => ⟨S8x256x256, .f32⟩
  | 34 => ⟨S8x256x256, .f32⟩
  | 35 => ⟨S_, .f32⟩
  | 36 => ⟨S8x256x256, .f32⟩
  | 37 => ⟨S8x256x256, .f32⟩
  | 38 => ⟨S8x256x256, .f32⟩
  | 39 => ⟨S8x256x256, .f32⟩
  | 40 => ⟨S8x256x256, .f32⟩
  | 41 => ⟨S8x256x256, .f32⟩
  | 42 => ⟨S8x256x256, .f32⟩
  | 43 => ⟨S8x256x256, .f32⟩
  | 44 => ⟨S8x256x256, .f32⟩
  | 45 => ⟨S8x256x256, .f32⟩
  | 46 => ⟨S8x256x256, .f32⟩
  | 47 => ⟨S8x256x256, .f32⟩
  | 48 => ⟨S8x256x256, .f32⟩
  | 49 => ⟨S8x256x256, .f32⟩
  | 50 => ⟨S_, .f32⟩
  | 51 => ⟨S8x256x256, .f32⟩
  | 52 => ⟨S8x256x256, .i1⟩
  | 53 => ⟨S_, .f32⟩
  | 54 => ⟨S8x256x256, .f32⟩
  | 55 => ⟨S8x256x256, .i1⟩
  | 56 => ⟨S8x256x256, .i1⟩
  | 57 => ⟨S_, .f32⟩
  | 58 => ⟨S8x256x256, .f32⟩
  | 59 => ⟨S8x256x256, .i1⟩
  | 60 => ⟨S_, .f32⟩
  | 61 => ⟨S8x256x256, .f32⟩
  | 62 => ⟨S8x256x256, .i1⟩
  | 63 => ⟨S8x256x256, .i1⟩
  | 64 => ⟨S_, .f32⟩
  | 65 => ⟨S8x256x256, .f32⟩
  | 66 => ⟨S8x256x256, .i1⟩
  | 67 => ⟨S_, .f32⟩
  | 68 => ⟨S8x256x256, .f32⟩
  | 69 => ⟨S8x256x256, .i1⟩
  | 70 => ⟨S8x256x256, .i1⟩
  | 71 => ⟨S_, .f32⟩
  | 72 => ⟨S8x256x256, .f32⟩
  | 73 => ⟨S8x256x256, .i1⟩
  | 74 => ⟨S_, .f32⟩
  | 75 => ⟨S8x256x256, .f32⟩
  | 76 => ⟨S8x256x256, .i1⟩
  | 77 => ⟨S8x256x256, .i1⟩
  | 78 => ⟨S8x256x256, .i1⟩
  | 79 => ⟨S_, .f32⟩
  | 80 => ⟨S_, .f32⟩
  | 81 => ⟨S8x256x256, .f32⟩
  | 82 => ⟨S8x256x256, .f32⟩
  | 83 => ⟨S8x256x256, .i1⟩
  | 84 => ⟨S_, .f32⟩
  | 85 => ⟨S_, .f32⟩
  | 86 => ⟨S8x256x256, .f32⟩
  | 87 => ⟨S8x256x256, .f32⟩
  | 88 => ⟨S8x256x256, .i1⟩
  | 89 => ⟨S_, .f32⟩
  | 90 => ⟨S_, .f32⟩
  | 91 => ⟨S8x256x256, .f32⟩
  | 92 => ⟨S8x256x256, .f32⟩
  | 93 => ⟨S8x256x256, .i1⟩
  | 94 => ⟨S_, .f32⟩
  | 95 => ⟨S_, .f32⟩
  | 96 => ⟨S8x256x256, .f32⟩
  | 97 => ⟨S8x256x256, .f32⟩
  | 98 => ⟨S_, .i32⟩
  | 99 => ⟨S_, .i32⟩
  | 100 => ⟨S_, .f32⟩
  | 101 => ⟨S8x256x256, .f32⟩
  | 102 => ⟨S8x256x256, .f32⟩
  | 103 => ⟨S_, .f32⟩
  | 104 => ⟨S8x256x256, .f32⟩
  | 105 => ⟨S8x256x256, .f32⟩
  | 106 => ⟨S8x256x256, .i32⟩
  | 107 => ⟨S_, .i32⟩
  | 108 => ⟨S_, .i32⟩
  | 109 => ⟨S_, .f32⟩
  | 110 => ⟨S8x256x256, .f32⟩
  | 111 => ⟨S8x256x256, .f32⟩
  | 112 => ⟨S_, .f32⟩
  | 113 => ⟨S8x256x256, .f32⟩
  | 114 => ⟨S8x256x256, .f32⟩
  | 115 => ⟨S8x256x256, .i32⟩
  | 116 => ⟨S_, .i32⟩
  | 117 => ⟨S_, .i32⟩
  | 118 => ⟨S_, .f32⟩
  | 119 => ⟨S8x256x256, .f32⟩
  | 120 => ⟨S8x256x256, .f32⟩
  | 121 => ⟨S_, .f32⟩
  | 122 => ⟨S8x256x256, .f32⟩
  | 123 => ⟨S8x256x256, .f32⟩
  | 124 => ⟨S8x256x256, .i32⟩
  | 125 => ⟨S_, .i32⟩
  | 126 => ⟨S_, .i32⟩
  | 127 => ⟨S_, .f32⟩
  | _ => ⟨S8x64x256x256, .f32⟩

abbrev hbmTy0_1 (i : Nat) : BufTy := match i % 128 with
  | 0 => ⟨S8x256x256, .f32⟩
  | 1 => ⟨S8x256x256, .f32⟩
  | 2 => ⟨S_, .f32⟩
  | 3 => ⟨S8x256x256, .f32⟩
  | 4 => ⟨S8x256x256, .f32⟩
  | 5 => ⟨S8x256x256, .i32⟩
  | 6 => ⟨S8x64x256x256, .bf16⟩
  | 7 => ⟨S8x64x256x256, .f32⟩
  | _ => ⟨S8x64x256x256, .f32⟩

abbrev hbmTy (i : Nat) : BufTy := match i / 128 with
  | 0 => hbmTy0_0 i
  | 1 => hbmTy0_1 i
  | _ => ⟨S8x64x256x256, .f32⟩

abbrev bufTy : (tb : Table) → Fin (tcTables nBuf tb) → BufTy
  | .hbm, ⟨i, _⟩ => hbmTy i
  | .local _ .vmem, ⟨0, _⟩ => ⟨S1x4x256x256, .bf16⟩
  | .local _ .vmem, ⟨1, _⟩ => ⟨S1x4x256x256, .bf16⟩
  | .local _ .vmem, ⟨2, _⟩ => ⟨S1x8x256, .i32⟩
  | .local _ .vmem, ⟨3, _⟩ => ⟨S1x8x256, .i32⟩
  | .local _ .vmem, ⟨4, _⟩ => ⟨S1x8x256, .i32⟩
  | .local _ .vmem, ⟨5, _⟩ => ⟨S1x8x256, .i32⟩
  | .local _ .vmem, ⟨6, _⟩ => ⟨S1x8x256, .i32⟩
  | .local _ .vmem, ⟨7, _⟩ => ⟨S1x8x256, .i32⟩
  | .local _ .vmem, ⟨8, _⟩ => ⟨S1x8x256, .i32⟩
  | .local _ .vmem, ⟨9, _⟩ => ⟨S1x8x256, .i32⟩
  | .local _ .vmem, ⟨10, _⟩ => ⟨S1x8x256, .f32⟩
  | .local _ .vmem, ⟨11, _⟩ => ⟨S1x8x256, .f32⟩
  | .local _ .vmem, ⟨12, _⟩ => ⟨S1x8x256, .f32⟩
  | .local _ .vmem, ⟨13, _⟩ => ⟨S1x8x256, .f32⟩
  | .local _ .vmem, ⟨14, _⟩ => ⟨S1x8x256, .f32⟩
  | .local _ .vmem, ⟨15, _⟩ => ⟨S1x8x256, .f32⟩
  | .local _ .vmem, ⟨16, _⟩ => ⟨S1x8x256, .f32⟩
  | .local _ .vmem, ⟨17, _⟩ => ⟨S1x8x256, .f32⟩
  | .local _ .vmem, ⟨18, _⟩ => ⟨S1x4x8x256, .f32⟩
  | .local _ .vmem, ⟨19, _⟩ => ⟨S1x4x8x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_cst_14 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_15 : Ref sig .tc := ⟨.hbm, 71, rfl⟩
abbrev main_v53 : Ref sig .tc := ⟨.hbm, 72, rfl⟩
abbrev main_v54 : Ref sig .tc := ⟨.hbm, 73, rfl⟩
abbrev main_cst_16 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_17 : Ref sig .tc := ⟨.hbm, 79, rfl⟩
abbrev main_call0_v0 : Ref sig .tc := ⟨.hbm, 80, rfl⟩
abbrev main_call0_v1 : Ref sig .tc := ⟨.hbm, 81, rfl⟩
abbrev main_v59 : Ref sig .tc := ⟨.hbm, 82, rfl⟩
abbrev main_v60 : Ref sig .tc := ⟨.hbm, 83, rfl⟩
abbrev main_cst_18 : Ref sig .tc := ⟨.hbm, 84, rfl⟩
abbrev main_call1_v0 : Ref sig .tc := ⟨.hbm, 85, rfl⟩
abbrev main_call1_v1 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_v64 : Ref sig .tc := ⟨.hbm, 93, rfl⟩
abbrev main_cst_20 : Ref sig .tc := ⟨.hbm, 94, rfl⟩
abbrev main_call3_v0 : Ref sig .tc := ⟨.hbm, 95, rfl⟩
abbrev main_call3_v1 : Ref sig .tc := ⟨.hbm, 96, rfl⟩
abbrev main_v65 : Ref sig .tc := ⟨.hbm, 97, rfl⟩
abbrev main_c : Ref sig .tc := ⟨.hbm, 98, rfl⟩
abbrev main_c_21 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v66 : Ref sig .tc := ⟨.hbm, 105, rfl⟩
abbrev main_v67 : Ref sig .tc := ⟨.hbm, 106, rfl⟩
abbrev main_c_22 : Ref sig .tc := ⟨.hbm, 107, rfl⟩
abbrev main_c_23 : Ref sig .tc := ⟨.hbm, 108, rfl⟩
abbrev main_call5_v0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_v68 : Ref sig .tc := ⟨.hbm, 114, rfl⟩
abbrev main_v69 : Ref sig .tc := ⟨.hbm, 115, rfl⟩
abbrev main_c_24 : Ref sig .tc := ⟨.hbm, 116, rfl⟩
abbrev main_c_25 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v70 : Ref sig .tc := ⟨.hbm, 123, rfl⟩
abbrev main_v71 : Ref sig .tc := ⟨.hbm, 124, rfl⟩
abbrev main_c_26 : Ref sig .tc := ⟨.hbm, 125, rfl⟩
abbrev main_c_27 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 16, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x8x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1x4x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  slices_S8x256x256x2_S8x256x256x1_0_0_0_1 : S8x256x256x2.Slices ![0, 0, 0, 1] S8x256x256x1
  bcast_S_S8x256x256 : S_.BroadcastsInDim S8x256x256 (![] : Fin 0 → Fin S8x256x256.rank)
  bitsLt_bf16_f32 : FTy.bits .bf16 < FTy.bits .f32
  inb_S1x8x256_S1x8x256_0_0_0 : ∀ a, (![0, 0, 0] : Fin 3 → Nat) a + S1x8x256.size a ≤ S1x8x256.size a
  h_S1x8x256 : 0 < S1x8x256.numel
  shapeCasts_S1x8x256_S8x256 : S1x8x256.ShapeCasts S8x256
  shapeCasts_S8x256_S2048 : S8x256.ShapeCasts S2048
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1024x256 : S4x256x256.ShapeCasts S1024x256
  iota_S256x2048_d0_w32 : S256x2048.Iotas .tc 32 [0]
  shapeCasts_S2048_S1x2048 : S2048.ShapeCasts S1x2048
  broadcasts_S1x2048_S256x2048 : S1x2048.Broadcasts S256x2048
  natLt_1_32 : 1 < 32
  shapeCasts_S1024x2048_S4x256x2048 : S1024x2048.ShapeCasts S4x256x2048
  shapeCasts_S256x2048_S1x256x2048 : S256x2048.ShapeCasts S1x256x2048
  broadcasts_S1x256x2048_S4x256x2048 : S1x256x2048.Broadcasts S4x256x2048
  reduces_S4x256x2048_S4x2048 : S4x256x2048.Reduces [1] S4x2048
  shapeCasts_S4x2048_S4x8x256 : S4x2048.ShapeCasts S4x8x256
  inb_S1x4x8x256_S1x4x8x256_0_0_0_0 : ∀ a, (![0, 0, 0, 0] : Fin 4 → Nat) a + S1x4x8x256.size a ≤ S1x4x8x256.size a
  h_S1x4x8x256 : 0 < S1x4x8x256.numel
  shapeCasts_S1x4x8x256_S4x8x256 : S1x4x8x256.ShapeCasts S4x8x256
  shapeCasts_S4x8x256_S1x4x8x256 : S4x8x256.ShapeCasts S1x4x8x256
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x256x256.size a ≤ S8x64x256x256.size a
  hwx0_0 : ∀ i : grid0.Coords, EltTy.bits .bf16 = 32 ∨ (Rect.block (s := S8x64x256x256) S1x4x256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x256.size a ≤ S8x256x256.size a
  hwx0_1 : ∀ i : grid0.Coords, EltTy.bits .i32 = 32 ∨ (Rect.block (s := S8x256x256) S1x8x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256.size a ≤ S8x256x256.size a
  hwx0_2 : ∀ i : grid0.Coords, EltTy.bits .i32 = 32 ∨ (Rect.block (s := S8x256x256) S1x8x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x256.size a ≤ S8x256x256.size a
  hwx0_3 : ∀ i : grid0.Coords, EltTy.bits .i32 = 32 ∨ (Rect.block (s := S8x256x256) S1x8x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256.size a ≤ S8x256x256.size a
  hwx0_4 : ∀ i : grid0.Coords, EltTy.bits .i32 = 32 ∨ (Rect.block (s := S8x256x256) S1x8x256.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x256.size a ≤ S8x256x256.size a
  hwx0_5 : ∀ i : grid0.Coords, EltTy.bits .f32 = 32 ∨ (Rect.block (s := S8x256x256) S1x8x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x256.size a ≤ S8x256x256.size a
  hwx0_6 : ∀ i : grid0.Coords, EltTy.bits .f32 = 32 ∨ (Rect.block (s := S8x256x256) S1x8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x256.size a ≤ S8x256x256.size a
  hwx0_7 : ∀ i : grid0.Coords, EltTy.bits .f32 = 32 ∨ (Rect.block (s := S8x256x256) S1x8x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x256.size a ≤ S8x256x256.size a
  hwx0_8 : ∀ i : grid0.Coords, EltTy.bits .f32 = 32 ∨ (Rect.block (s := S8x256x256) S1x8x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4x8x256.size a ≤ S8x64x256x256.size a
  hwx0_9 : ∀ i : grid0.Coords, EltTy.bits .f32 = 32 ∨ (Rect.block (s := S8x64x256x256) S1x4x8x256.size (cc0_transform_9 i) (hinb0_9 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v74) S1x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S1x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v69) S1x8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S1x8x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v73) S1x8x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x8x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1x8x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v63) S1x8x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v65) S1x8x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v75) S1x4x8x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x256x256x2 : Shape := ⟨4, ![8, 256, 256, 2]⟩
abbrev S8x256x256x1 : Shape := ⟨4, ![8, 256, 256, 1]⟩
abbrev S8x256x256 : Shape := ⟨3, ![8, 256, 256]⟩
abbrev S_ : Shape := ⟨0, ![]⟩
abbrev S8x1x256x256 : Shape := ⟨4, ![8, 1, 256, 256]⟩

abbrev nBuf : Space → Nat
  | .hbm => 285
  | .vmem => 0
  | .smem => 0
  | _ => 0

abbrev hbmTy0_0 (i : Nat) : BufTy := match i % 128 with
  | 0 => ⟨S8x64x256x256, .f32⟩
  | 1 => ⟨S8x256x256x2, .f32⟩
  | 2 => ⟨S8x256x256x1, .f32⟩
  | 3 => ⟨S8x256x256, .f32⟩
  | 4 => ⟨S8x256x256x1, .f32⟩
  | 5 => ⟨S8x256x256, .f32⟩
  | 6 => ⟨S_, .f32⟩
  | 7 => ⟨S8x256x256, .f32⟩
  | 8 => ⟨S8x256x256, .f32⟩
  | 9 => ⟨S_, .f32⟩
  | 10 => ⟨S8x256x256, .f32⟩
  | 11 => ⟨S8x256x256, .f32⟩
  | 12 => ⟨S_, .f32⟩
  | 13 => ⟨S8x256x256, .f32⟩
  | 14 => ⟨S8x256x256, .f32⟩
  | 15 => ⟨S_, .f32⟩
  | 16 => ⟨S8x256x256, .f32⟩
  | 17 => ⟨S8x256x256, .f32⟩
  | 18 => ⟨S_, .f32⟩
  | 19 => ⟨S8x256x256, .f32⟩
  | 20 => ⟨S8x256x256, .f32⟩
  | 21 => ⟨S_, .f32⟩
  | 22 => ⟨S8x256x256, .f32⟩
  | 23 => ⟨S8x256x256, .f32⟩
  | 24 => ⟨S_, .f32⟩
  | 25 => ⟨S8x256x256, .f32⟩
  | 26 => ⟨S8x256x256, .f32⟩
  | 27 => ⟨S_, .f32⟩
  | 28 => ⟨S8x256x256, .f32⟩
  | 29 => ⟨S8x256x256, .f32⟩
  | 30 => ⟨S8x256x256, .f32⟩
  | 31 => ⟨S8x256x256, .f32⟩
  | 32 => ⟨S_, .f32⟩
  | 33 => ⟨S8x256x256, .f32⟩
  | 34 => ⟨S8x256x256, .f32⟩
  | 35 => ⟨S_, .f32⟩
  | 36 => ⟨S8x256x256, .f32⟩
  | 37 => ⟨S8x256x256, .f32⟩
  | 38 => ⟨S8x256x256, .f32⟩
  | 39 => ⟨S8x256x256, .f32⟩
  | 40 => ⟨S8x256x256, .f32⟩
  | 41 => ⟨S8x256x256, .f32⟩
  | 42 => ⟨S8x256x256, .f32⟩
  | 43 => ⟨S8x256x256, .f32⟩
  | 44 => ⟨S8x256x256, .f32⟩
  | 45 => ⟨S8x256x256, .f32⟩
  | 46 => ⟨S8x256x256, .f32⟩
  | 47 => ⟨S8x256x256, .f32⟩
  | 48 => ⟨S8x256x256, .f32⟩
  | 49 => ⟨S8x256x256, .f32⟩
  | 50 => ⟨S_, .f32⟩
  | 51 => ⟨S8x256x256, .f32⟩
  | 52 => ⟨S8x256x256, .i1⟩
  | 53 => ⟨S_, .f32⟩
  | 54 => ⟨S8x256x256, .f32⟩
  | 55 => ⟨S8x256x256, .i1⟩
  | 56 => ⟨S8x256x256, .i1⟩
  | 57 => ⟨S_, .f32⟩
  | 58 => ⟨S8x256x256, .f32⟩
  | 59 => ⟨S8x256x256, .i1⟩
  | 60 => ⟨S8x256x256, .i1⟩
  | 61 => ⟨S_, .f32⟩
  | 62 => ⟨S8x256x256, .f32⟩
  | 63 => ⟨S8x256x256, .i1⟩
  | 64 => ⟨S8x256x256, .i1⟩
  | 65 => ⟨S_, .i32⟩
  | 66 => ⟨S_, .i32⟩
  | 67 => ⟨S_, .f32⟩
  | 68 => ⟨S8x256x256, .f32⟩
  | 69 => ⟨S8x256x256, .f32⟩
  | 70 => ⟨S_, .f32⟩
  | 71 => ⟨S8x256x256, .f32⟩
  | 72 => ⟨S8x256x256, .f32⟩
  | 73 => ⟨S8x256x256, .i32⟩
  | 74 => ⟨S_, .i32⟩
  | 75 => ⟨S_, .i32⟩
  | 76 => ⟨S_, .f32⟩
  | 77 => ⟨S8x256x256, .f32⟩
  | 78 => ⟨S8x256x256, .f32⟩
  | 79 => ⟨S_, .f32⟩
  | 80 => ⟨S8x256x256, .f32⟩
  | 81 => ⟨S8x256x256, .f32⟩
  | 82 => ⟨S8x256x256, .i32⟩
  | 83 => ⟨S_, .i32⟩
  | 84 => ⟨S8x256x256, .i32⟩
  | 85 => ⟨S8x256x256, .i1⟩
  | 86 => ⟨S_, .i32⟩
  | 87 => ⟨S8x256x256, .i32⟩
  | 88 => ⟨S8x256x256, .i32⟩
  | 89 => ⟨S8x256x256, .i32⟩
  | 90 => ⟨S_, .i32⟩
  | 91 => ⟨S8x256x256, .i32⟩
  | 92 => ⟨S8x256x256, .i1⟩
  | 93 => ⟨S_, .i32⟩
  | 94 => ⟨S8x256x256, .i32⟩
  | 95 => ⟨S8x256x256, .i32⟩
  | 96 => ⟨S8x256x256, .i32⟩
  | 97 => ⟨S8x256x256x1, .i32⟩
  | 98 => ⟨S8x256x256x1, .i32⟩
  | 99 => ⟨S8x256x256x2, .i32⟩
  | 100 => ⟨S8x64x256x256, .f32⟩
  | 101 => ⟨S8x256x256, .f32⟩
  | 102 => ⟨S8x1x256x256, .f32⟩
  | 103 => ⟨S8x64x256x256, .f32⟩
  | 104 => ⟨S8x64x256x256, .f32⟩
  | 105 => ⟨S_, .f32⟩
  | 106 => ⟨S8x256x256, .f32⟩
  | 107 => ⟨S8x256x256, .i1⟩
  | 108 => ⟨S_, .f32⟩
  | 109 => ⟨S8x256x256, .f32⟩
  | 110 => ⟨S8x256x256, .i1⟩
  | 111 => ⟨S8x256x256, .i1⟩
  | 112 => ⟨S_, .f32⟩
  | 113 => ⟨S8x256x256, .f32⟩
  | 114 => ⟨S8x256x256, .i1⟩
  | 115 => ⟨S8x256x256, .i1⟩
  | 116 => ⟨S_, .f32⟩
  | 117 => ⟨S8x256x256, .f32⟩
  | 118 => ⟨S8x256x256, .i1⟩
  | 119 => ⟨S8x256x256, .i1⟩
  | 120 => ⟨S_, .i32⟩
  | 121 => ⟨S_, .i32⟩
  | 122 => ⟨S_, .f32⟩
  | 123 => ⟨S8x256x256, .f32⟩
  | 124 => ⟨S8x256x256, .f32⟩
  | 125 => ⟨S_, .f32⟩
  | 126 => ⟨S8x256x256, .f32⟩
  | 127 => ⟨S8x256x256, .f32⟩
  | _ => ⟨S8x64x256x256, .f32⟩

abbrev hbmTy0_1 (i : Nat) : BufTy := match i % 128 with
  | 0 => ⟨S8x256x256, .i32⟩
  | 1 => ⟨S_, .i32⟩
  | 2 => ⟨S_, .i32⟩
  | 3 => ⟨S_, .f32⟩
  | 4 => ⟨S8x256x256, .f32⟩
  | 5 => ⟨S8x256x256, .f32⟩
  | 6 => ⟨S_, .f32⟩
  | 7 => ⟨S8x256x256, .f32⟩
  | 8 => ⟨S8x256x256, .f32⟩
  | 9 => ⟨S8x256x256, .i32⟩
  | 10 => ⟨S_, .i32⟩
  | 11 => ⟨S8x256x256, .i32⟩
  | 12 => ⟨S8x256x256, .i1⟩
  | 13 => ⟨S_, .i32⟩
  | 14 => ⟨S8x256x256, .i32⟩
  | 15 => ⟨S8x256x256, .i32⟩
  | 16 => ⟨S8x256x256, .i32⟩
  | 17 => ⟨S_, .i32⟩
  | 18 => ⟨S8x256x256, .i32⟩
  | 19 => ⟨S8x256x256, .i1⟩
  | 20 => ⟨S_, .i32⟩
  | 21 => ⟨S8x256x256, .i32⟩
  | 22 => ⟨S8x256x256, .i32⟩
  | 23 => ⟨S8x256x256, .i32⟩
  | 24 => ⟨S8x256x256x1, .i32⟩
  | 25 => ⟨S8x256x256x1, .i32⟩
  | 26 => ⟨S8x256x256x2, .i32⟩
  | 27 => ⟨S8x64x256x256, .f32⟩
  | 28 => ⟨S8x256x256, .f32⟩
  | 29 => ⟨S8x1x256x256, .f32⟩
  | 30 => ⟨S8x64x256x256, .f32⟩
  | 31 => ⟨S8x64x256x256, .f32⟩
  | 32 => ⟨S_, .f32⟩
  | 33 => ⟨S8x256x256, .f32⟩
  | 34 => ⟨S8x256x256, .i1⟩
  | 35 => ⟨S_, .f32⟩
  | 36 => ⟨S8x256x256, .f32⟩
  | 37 => ⟨S8x256x256, .i1⟩
  | 38 => ⟨S8x256x256, .i1⟩
  | 39 => ⟨S_, .f32⟩
  | 40 => ⟨S8x256x256, .f32⟩
  | 41 => ⟨S8x256x256, .i1⟩
  | 42 => ⟨S8x256x256, .i1⟩
  | 43 => ⟨S_, .f32⟩
  | 44 => ⟨S8x256x256, .f32⟩
  | 45 => ⟨S8x256x256, .i1⟩
  | 46 => ⟨S8x256x256, .i1⟩
  | 47 => ⟨S_, .i32⟩
  | 48 => ⟨S_, .i32⟩
  | 49 => ⟨S_, .f32⟩
  | 50 => ⟨S8x256x256, .f32⟩
  | 51 => ⟨S8x256x256, .f32⟩
  | 52 => ⟨S_, .f32⟩
  | 53 => ⟨S8x256x256, .f32⟩
  | 54 => ⟨S8x256x256, .f32⟩
  | 55 => ⟨S8x256x256, .i32⟩
  | 56 => ⟨S_, .i32⟩
  | 57 => ⟨S_, .i32⟩
  | 58 => ⟨S_, .f32⟩
  | 59 => ⟨S8x256x256, .f32⟩
  | 60 => ⟨S8x256x256, .f32⟩
  | 61 => ⟨S_, .f32⟩
  | 62 => ⟨S8x256x256, .f32⟩
  | 63 => ⟨S8x256x256, .f32⟩
  | 64 => ⟨S8x256x256, .i32⟩
  | 65 => ⟨S_, .i32⟩
  | 66 => ⟨S8x256x256, .i32⟩
  | 67 => ⟨S8x256x256, .i1⟩
  | 68 => ⟨S_, .i32⟩
  | 69 => ⟨S8x256x256, .i32⟩
  | 70 => ⟨S8x256x256, .i32⟩
  | 71 => ⟨S8x256x256, .i32⟩
  | 72 => ⟨S_, .i32⟩
  | 73 => ⟨S8x256x256, .i32⟩
  | 74 => ⟨S8x256x256, .i1⟩
  | 75 => ⟨S_, .i32⟩
  | 76 => ⟨S8x256x256, .i32⟩
  | 77 => ⟨S8x256x256, .i32⟩
  | 78 => ⟨S8x256x256, .i32⟩
  | 79 => ⟨S8x256x256x1, .i32⟩
  | 80 => ⟨S8x256x256x1, .i32⟩
  | 81 => ⟨S8x256x256x2, .i32⟩
  | 82 => ⟨S8x64x256x256, .f32⟩
  | 83 => ⟨S8x256x256, .f32⟩
  | 84 => ⟨S8x1x256x256, .f32⟩
  | 85 => ⟨S8x64x256x256, .f32⟩
  | 86 => ⟨S8x64x256x256, .f32⟩
  | 87 => ⟨S_, .f32⟩
  | 88 => ⟨S8x256x256, .f32⟩
  | 89 => ⟨S8x256x256, .i1⟩
  | 90 => ⟨S_, .f32⟩
  | 91 => ⟨S8x256x256, .f32⟩
  | 92 => ⟨S8x256x256, .i1⟩
  | 93 => ⟨S8x256x256, .i1⟩
  | 94 => ⟨S_, .f32⟩
  | 95 => ⟨S8x256x256, .f32⟩
  | 96 => ⟨S8x256x256, .i1⟩
  | 97 => ⟨S8x256x256, .i1⟩
  | 98 => ⟨S_, .f32⟩
  | 99 => ⟨S8x256x256, .f32⟩
  | 100 => ⟨S8x256x256, .i1⟩
  | 101 => ⟨S8x256x256, .i1⟩
  | 102 => ⟨S_, .i32⟩
  | 103 => ⟨S_, .i32⟩
  | 104 => ⟨S_, .f32⟩
  | 105 => ⟨S8x256x256, .f32⟩
  | 106 => ⟨S8x256x256, .f32⟩
  | 107 => ⟨S_, .f32⟩
  | 108 => ⟨S8x256x256, .f32⟩
  | 109 => ⟨S8x256x256, .f32⟩
  | 110 => ⟨S8x256x256, .i32⟩
  | 111 => ⟨S_, .i32⟩
  | 112 => ⟨S_, .i32⟩
  | 113 => ⟨S_, .f32⟩
  | 114 => ⟨S8x256x256, .f32⟩
  | 115 => ⟨S8x256x256, .f32⟩
  | 116 => ⟨S_, .f32⟩
  | 117 => ⟨S8x256x256, .f32⟩
  | 118 => ⟨S8x256x256, .f32⟩
  | 119 => ⟨S8x256x256, .i32⟩
  | 120 => ⟨S_, .i32⟩
  | 121 => ⟨S8x256x256, .i32⟩
  | 122 => ⟨S8x256x256, .i1⟩
  | 123 => ⟨S_, .i32⟩
  | 124 => ⟨S8x256x256, .i32⟩
  | 125 => ⟨S8x256x256, .i32⟩
  | 126 => ⟨S8x256x256, .i32⟩
  | 127 => ⟨S_, .i32⟩
  | _ => ⟨S8x64x256x256, .f32⟩

abbrev hbmTy0_2 (i : Nat) : BufTy := match i % 128 with
  | 0 => ⟨S8x256x256, .i32⟩
  | 1 => ⟨S8x256x256, .i1⟩
  | 2 => ⟨S_, .i32⟩
  | 3 => ⟨S8x256x256, .i32⟩
  | 4 => ⟨S8x256x256, .i32⟩
  | 5 => ⟨S8x256x256, .i32⟩
  | 6 => ⟨S8x256x256x1, .i32⟩
  | 7 => ⟨S8x256x256x1, .i32⟩
  | 8 => ⟨S8x256x256x2, .i32⟩
  | 9 => ⟨S8x64x256x256, .f32⟩
  | 10 => ⟨S8x256x256, .f32⟩
  | 11 => ⟨S8x1x256x256, .f32⟩
  | 12 => ⟨S8x64x256x256, .f32⟩
  | 13 => ⟨S8x64x256x256, .f32⟩
  | 14 => ⟨S8x1x256x256, .f32⟩
  | 15 => ⟨S8x64x256x256, .f32⟩
  | 16 => ⟨S8x64x256x256, .f32⟩
  | 17 => ⟨S8x1x256x256, .f32⟩
  | 18 => ⟨S8x64x256x256, .f32⟩
  | 19 => ⟨S8x64x256x256, .f32⟩
  | 20 => ⟨S8x64x256x256, .f32⟩
  | 21 => ⟨S8x1x256x256, .f32⟩
  | 22 => ⟨S8x64x256x256, .f32⟩
  | 23 => ⟨S8x64x256x256, .f32⟩
  | 24 => ⟨S8x64x256x256, .f32⟩
  | 25 => ⟨S8x1x256x256, .f32⟩
  | 26 => ⟨S8x64x256x256, .f32⟩
  | 27 => ⟨S8x64x256x256, .f32⟩
  | 28 => ⟨S8x64x256x256, .f32⟩
  | _ => ⟨S8x64x256x256, .f32⟩

abbrev hbmTy (i : Nat) : BufTy := match i / 128 with
  | 0 => hbmTy0_0 i
  | 1 => hbmTy0_1 i
  | 2 => hbmTy0_2 i
  | _ => ⟨S8x64x256x256, .f32⟩

abbrev bufTy : (tb : Table) → Fin (tcTables nBuf tb) → BufTy
  | .hbm, ⟨i, _⟩ => hbmTy i
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_v39 : Ref sig .tc := ⟨.hbm, 52, rfl⟩
abbrev main_cst_10 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_11 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_12 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_c_13 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_c_15 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v51 : Ref sig .tc := ⟨.hbm, 81, rfl⟩
abbrev main_v52 : Ref sig .tc := ⟨.hbm, 82, rfl⟩
abbrev main_c_16 : Ref sig .tc := ⟨.hbm, 83, rfl⟩
abbrev main_v53 : Ref sig .tc := ⟨.hbm, 84, rfl⟩
abbrev main_v54 : Ref sig .tc := ⟨.hbm, 85, rfl⟩
abbrev main_c_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_18 : Ref sig .tc := ⟨.hbm, 90, rfl⟩
abbrev main_v58 : Ref sig .tc := ⟨.hbm, 91, rfl⟩
abbrev main_v59 : Ref sig .tc := ⟨.hbm, 92, rfl⟩
abbrev main_c_19 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_20 : Ref sig .tc := ⟨.hbm, 105, rfl⟩
abbrev main_v71 : Ref sig .tc := ⟨.hbm, 106, rfl⟩
abbrev main_v72 : Ref sig .tc := ⟨.hbm, 107, rfl⟩
abbrev main_cst_21 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_22 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_23 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_24 : Ref sig .tc := ⟨.hbm, 120, rfl⟩
abbrev main_c_25 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v82 : Ref sig .tc := ⟨.hbm, 127, rfl⟩
abbrev main_v83 : Ref sig .tc := ⟨.hbm, 128, rfl⟩
abbrev main_c_26 : Ref sig .tc := ⟨.hbm, 129, rfl⟩
abbrev main_c_27 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v84 : Ref sig .tc := ⟨.hbm, 136, rfl⟩
abbrev main_v85 : Ref sig .tc := ⟨.hbm, 137, rfl⟩
abbrev main_c_28 : Ref sig .tc := ⟨.hbm, 138, rfl⟩
abbrev main_v86 : Ref sig .tc := ⟨.hbm, 139, rfl⟩
abbrev main_v87 : Ref sig .tc := ⟨.hbm, 140, rfl⟩
abbrev main_c_29 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_c_30 : Ref sig .tc := ⟨.hbm, 145, rfl⟩
abbrev main_v91 : Ref sig .tc := ⟨.hbm, 146, rfl⟩
abbrev main_v92 : Ref sig .tc := ⟨.hbm, 147, rfl⟩
abbrev main_c_31 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_cst_32 : Ref sig .tc := ⟨.hbm, 160, rfl⟩
abbrev main_v104 : Ref sig .tc := ⟨.hbm, 161, rfl⟩
abbrev main_v105 : Ref sig .tc := ⟨.hbm, 162, rfl⟩
abbrev main_cst_33 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_34 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_35 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_c_36 : Ref sig .tc := ⟨.hbm, 175, rfl⟩
abbrev main_c_37 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_v115 : Ref sig .tc := ⟨.hbm, 182, rfl⟩
abbrev main_v116 : Ref sig .tc := ⟨.hbm, 183, rfl⟩
abbrev main_c_38 : Ref sig .tc := ⟨.hbm, 184, rfl⟩
abbrev main_c_39 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_v117 : Ref sig .tc := ⟨.hbm, 191, rfl⟩
abbrev main_v118 : Ref sig .tc := ⟨.hbm, 192, rfl⟩
abbrev main_c_40 : Ref sig .tc := ⟨.hbm, 193, rfl⟩
abbrev main_v119 : Ref sig .tc := ⟨.hbm, 194, rfl⟩
abbrev main_v120 : Ref sig .tc := ⟨.hbm, 195, rfl⟩
abbrev main_c_41 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_c_42 : Ref sig .tc := ⟨.hbm, 200, rfl⟩
abbrev main_v124 : Ref sig .tc := ⟨.hbm, 201, rfl⟩
abbrev main_v125 : Ref sig .tc := ⟨.hbm, 202, rfl⟩
abbrev main_c_43 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_v129 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_cst_44 : Ref sig .tc := ⟨.hbm, 215, rfl⟩
abbrev main_v137 : Ref sig .tc := ⟨.hbm, 216, rfl⟩
abbrev main_v138 : Ref sig .tc := ⟨.hbm, 217, rfl⟩
abbrev main_cst_45 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_cst_46 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_cst_47 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_c_48 : Ref sig .tc := ⟨.hbm, 230, rfl⟩
abbrev main_c_49 : Ref sig .tc := ⟨.hbm, 231, rfl⟩
abbrev main_call6_v0 : Ref sig .tc := ⟨.hbm, 232, rfl⟩
abbrev main_call6_v1 : Ref sig .tc := ⟨.hbm, 233, rfl⟩
abbrev main_call6_v2 : Ref sig .tc := ⟨.hbm, 234, rfl⟩
abbrev main_call6_v3 : Ref sig .tc := ⟨.hbm, 235, rfl⟩
abbrev main_call6_v4 : Ref sig .tc := ⟨.hbm, 236, rfl⟩
abbrev main_v148 : Ref sig .tc := ⟨.hbm, 237, rfl⟩
abbrev main_v149 : Ref sig .tc := ⟨.hbm, 238, rfl⟩
abbrev main_c_50 : Ref sig .tc := ⟨.hbm, 239, rfl⟩
abbrev main_c_51 : Ref sig .tc := ⟨.hbm, 240, rfl⟩
abbrev main_call7_v0 : Ref sig .tc := ⟨.hbm, 241, rfl⟩
abbrev main_call7_v1 : Ref sig .tc := ⟨.hbm, 242, rfl⟩
abbrev main_call7_v2 : Ref sig .tc := ⟨.hbm, 243, rfl⟩
abbrev main_call7_v3 : Ref sig .tc := ⟨.hbm, 244, rfl⟩
abbrev main_call7_v4 : Ref sig .tc := ⟨.hbm, 245, rfl⟩
abbrev main_v150 : Ref sig .tc := ⟨.hbm, 246, rfl⟩
abbrev main_v151 : Ref sig .tc := ⟨.hbm, 247, rfl⟩
abbrev main_c_52 : Ref sig .tc := ⟨.hbm, 248, rfl⟩
abbrev main_v152 : Ref sig .tc := ⟨.hbm, 249, rfl⟩
abbrev main_v153 : Ref sig .tc := ⟨.hbm, 250, rfl⟩
abbrev main_c_53 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_c_54 : Ref sig .tc := ⟨.hbm, 255, rfl⟩
abbrev main_v157 : Ref sig .tc := ⟨.hbm, 256, rfl⟩
abbrev main_v158 : Ref sig .tc := ⟨.hbm, 257, rfl⟩
abbrev main_c_55 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩

abbrev nD : Nat := 1
abbrev τ : Topo := Topo.v7x

variable {F : FTy → Type} [FloatOps F]

class Facts₀ : Prop where
  slices_S8x256x256x2_S8x256x256x1_0_0_0_0 : S8x256x256x2.Slices ![0, 0, 0, 0] S8x256x256x1
  shapeCasts_S8x256x256x1_S8x256x256 : S8x256x256x1.ShapeCasts S8x256x256
  slices_S8x256x256x2_S8x256x256x1_0_0_0_1 : S8x256x256x2.Slices ![0, 0, 0, 1] S8x256x256x1
  bcast_S_S8x256x256 : S_.BroadcastsInDim S8x256x256 (![] : Fin 0 → Fin S8x256x256.rank)
  bcast_S8x256x256_S8x256x256x1_0_1_2 : S8x256x256.BroadcastsInDim S8x256x256x1 (![0, 1, 2] : Fin 3 → Fin S8x256x256x1.rank)
  concatenates_S8x256x256x1_S8x256x256x1_S8x256x256x2_d3 : Shape.Concatenates [S8x256x256x1, S8x256x256x1] S8x256x256x2 3
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  gather_S8x64x256x256_S8x256x256x2_S8x64x256x256_1_23_0_0_23_3_16411_wf : GatherDims.WF S8x64x256x256 S8x256x256x2 S8x64x256x256 [1] [2, 3] [0] [2, 3] [0] 3 ![1, 64, 1, 1]

variable [Facts₀]

def gather_S8x64x256x256_S8x256x256x2_S8x64x256x256_1_23_0_0_23_3_16411 : GatherDims S8x64x256x256 S8x256x256x2 S8x64x256x256 where
  offsetDims := [1]
  collapsedSliceDims := [2, 3]
  operandBatchingDims := [0]
  startIndicesBatchingDims := [0]
  startIndexMap := [2, 3]
  indexVectorDim := 3
  sliceSizes := ![1, 64, 1, 1]
  wf := gather_S8x64x256x256_S8x256x256x2_S8x64x256x256_1_23_0_0_23_3_16411_wf

class Facts : Prop extends Facts₀ where

variable [Facts]
-- ==== Proof.LibFlatten.lean ====
/-
  Shape casts that merge or split neighbouring axes, and a broadcast along a new leading axis, read at an index.

  A shape cast keeps the row-major position of every entry.  So when two axes of extents a and b are merged into one
  of extent a·b, the entry at (i, j) goes to position i·b + j, and when one axis is split the position comes apart the
  same way; the other axes are untouched.  A [1, b, c] array broadcast to [a, b, c] repeats its one slab: the entry at
  (i, j, k) is the operand's at (0, j, k).
-/
import Idealize.ShloMosaic.Lib.Pipeline.Value
import Idealize.ShloMosaic.Lib.ValueIdx

noncomputable section

namespace Cert.Flatten

open Idealize.ShloMosaic Idealize.ShloMosaic.ValueIdx

variable {α : Type}

/-- [a, b] → [n] with n = a·b: the entry at position i·b + j is the operand's at (i, j). -/
theorem cast_ab_n_apply {a b n : ℕ} (x : (⟨2, ![a, b]⟩ : Shape).Idx → α)
    (h : (⟨2, ![a, b]⟩ : Shape).ShapeCasts ⟨1, ![n]⟩) (i : Fin a) (j : Fin b) (k : Fin n) (hk : k.val = i.val * b + j.val) :
    shapeCast ⟨1, ![n]⟩ x h (ix1 k) = x (ix2 i j) :=
  shapeCast_apply x h _ _ (by
    rw [Shape.rowMajor_val_two, Shape.rowMajor_val_one]
    show i.val * b + j.val = k.val
    exact hk.symm)

/-- [a, n] → [a, b, c] with n = b·c: the entry at (i, j, k) is the operand's at (i, j·c + k). -/
theorem cast_an_abc_apply {a b c n : ℕ} (x : (⟨2, ![a, n]⟩ : Shape).Idx → α)
    (h : (⟨2, ![a, n]⟩ : Shape).ShapeCasts ⟨3, ![a, b, c]⟩) (hn : n = b * c) (i : Fin a) (j : Fin b) (k : Fin c) (m : Fin n)
    (hm : m.val = j.val * c + k.val) :
    shapeCast ⟨3, ![a, b, c]⟩ x h (ix3 i j k) = x (ix2 i m) :=
  shapeCast_apply x h _ _ (by
    rw [Shape.rowMajor_val_three, Shape.rowMajor_val_two]
    show i.val * n + m.val = (i.val * b + j.val) * c + k.val
    rw [hm, hn, Nat.add_mul, Nat.mul_assoc, Nat.add_assoc])

/-- [m, n] → [a, b, n] with m = a·b: the entry at (i, j, k) is the operand's at (i·b + j, k). -/
theorem cast_mn_abn_apply {a b m n : ℕ} (x : (⟨2, ![m, n]⟩ : Shape).Idx → α)
    (h : (⟨2, ![m, n]⟩ : Shape).ShapeCasts ⟨3, ![a, b, n]⟩) (i : Fin a) (j : Fin b) (k : Fin n) (p : Fin m)
    (hp : p.val = i.val * b + j.val) :
    shapeCast ⟨3, ![a, b, n]⟩ x h (ix3 i j k) = x (ix2 p k) :=
  shapeCast_apply x h _ _ (by
    rw [Shape.rowMajor_val_three, Shape.rowMajor_val_two]
    show p.val * n + k.val = (i.val * b + j.val) * n + k.val
    rw [hp])

/-- [a, b, c] → [m, c] with m = a·b: the entry at (i·b + j, k) is the operand's at (i, j, k). -/
theorem cast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (p : Fin m)
    (hp : p.val = i.val * b + j.val) :
    shapeCast ⟨2, ![m, c]⟩ x h (ix2 p k) = x (ix3 i j k) :=
  shapeCast_apply x h _ _ (by
    rw [Shape.rowMajor_val_three, Shape.rowMajor_val_two]
    show (i.val * b + j.val) * c + k.val = p.val * c + k.val
    rw [hp])

/-- [1, b, c] → [a, b, c]: the entry at (i, j, k) is the operand's at (0, j, k). -/
theorem bcast_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.Flatten

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.LibUnitAxes.lean ====
/-
  Forms with a trailing or leading unit axis, read at an index, and two lane sums at the ideal values.

  A keepdims reduction over the last axis of a rank-3 array goes through four layout steps, each a plain re-indexing:
    [a, b] → [a, b, 1] (shape cast): the entry at (i, j, 0) is the operand's at (i, j);
    [a, b, 1] → [a, b, n] (broadcast): the entry at (i, j, k) is the operand's at (i, j, 0);
    [n] → [1, 1, n] (shape cast): the entry at (0, 0, k) is the operand's at k;
    [1, 1, n] → [a, b, n] (broadcast): the entry at (i, j, k) is the operand's at (0, 0, k).
  At the ideal values a float add-reduction of a rank-3 array along its last axis is, at (i, j), the sum over k of the
  entries (i, j, k), and along its middle axis, at (i, k), the sum over j of the entries (i, j, k). The two sums are
  stated with the accumulator hypothesis typed as the equation of words a printed program carries.
-/
import Idealize.ShloMosaic.Lib.Pipeline.Value
import Idealize.ShloMosaic.Lib.ValueIdx
import Idealize.ShloMosaic.PureOps.Ideal.Laws

noncomputable section

namespace Cert.UnitAxes

open Idealize.ShloMosaic Idealize.ShloMosaic.ValueIdx

variable {α : Type}

/-- [a, b] → [a, b, 1]: the entry at (i, j, u) is the operand's at (i, j). -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- [n] → [1, 1, n]: the entry at (u, v, k) is the operand's at k. -/
theorem cast_n_11n_apply {n : ℕ} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]; simp)

/-- [a, b, 1] → [a, b, n] for n ≠ 1... stated for any n: the entry at (i, j, k) is the operand's at (i, j, 0). -/
theorem bcast_ab1_abn_apply {a b n : ℕ} (x : (⟨3, ![a, b, 1]⟩ : Shape).Idx → α)
    (h : (⟨3, ![a, b, 1]⟩ : Shape).Broadcasts ⟨3, ![a, b, n]⟩) (ha : a ≠ 1) (hb : b ≠ 1) (i : Fin a) (j : Fin b) (k : Fin n) :
    broadcastTo ⟨3, ![a, b, n]⟩ x h (ix3 i j k) = x (ix3 i j (0 : Fin 1)) :=
  broadcastTo_apply x h _ _ (fun c => by
    match c with
    | ⟨0, _⟩ => show i.val = if a = 1 then 0 else i.val; rw [if_neg ha]
    | ⟨1, _⟩ => show j.val = if b = 1 then 0 else j.val; rw [if_neg hb]
    | ⟨2, _⟩ => show (0 : ℕ) = if (1 : ℕ) = 1 then 0 else k.val; rw [if_pos rfl])

/-- [1, 1, n] → [a, b, n]: the entry at (i, j, k) is the operand's at (0, 0, k). -/
theorem bcast_11n_abn_apply {a b n : ℕ} (x : (⟨3, ![1, 1, n]⟩ : Shape).Idx → α)
    (h : (⟨3, ![1, 1, n]⟩ : Shape).Broadcasts ⟨3, ![a, b, n]⟩) (hn : n ≠ 1) (i : Fin a) (j : Fin b) (k : Fin n) :
    broadcastTo ⟨3, ![a, b, n]⟩ x h (ix3 i j k) = x (ix3 (0 : Fin 1) (0 : Fin 1) k) :=
  broadcastTo_apply x h _ _ (fun c => by
    match c with
    | ⟨0, _⟩ => show (0 : ℕ) = if (1 : ℕ) = 1 then 0 else i.val; rw [if_pos rfl]
    | ⟨1, _⟩ => show (0 : ℕ) = if (1 : ℕ) = 1 then 0 else j.val; rw [if_pos rfl]
    | ⟨2, _⟩ => show k.val = if n = 1 then 0 else k.val; rw [if_neg hn])

/-- A float add-reduction along the LAST axis of a rank-3 array, at the ideal values: at (i, j) the sum over k of the
    entries (i, j, k). The accumulator hypothesis is the equation of words a printed program carries. -/
theorem sum_last_apply {a b n : ℕ} (src : FVec Ideal ⟨3, ![a, b, n]⟩ .f32)
    (h : (⟨3, ![a, b, n]⟩ : Shape).Reduces [(2 : Fin 3)] ⟨2, ![a, b]⟩) (hφ : FKind.Formats .f32)
    (hacc : (0x00000000#32 : BitVec 32) = 0x00000000#32) (i : Fin a) (j : Fin b) :
    multiReduction .add [(2 : Fin 3)] ⟨2, ![a, b]⟩ src 0x00000000#32 h hφ hacc (ix2 i j) = ∑ k : Fin n, src (ix3 i j k) := by
  refine (Ideal.multiReduction_add_single src 0x00000000#32 h hφ hacc (ix2 i j)).trans ?_
  refine Finset.sum_congr rfl fun k _ => congrArg src (funext fun c => Fin.ext ?_)
  match c with
  | ⟨0, _⟩ => rfl
  | ⟨1, _⟩ => rfl
  | ⟨2, _⟩ => rfl

/-- A float add-reduction along the MIDDLE axis of a rank-3 array, at the ideal values: at (i, k) the sum over j of the
    entries (i, j, k). -/
theorem sum_middle_apply {a b n : ℕ} (src : FVec Ideal ⟨3, ![a, b, n]⟩ .f32)
    (h : (⟨3, ![a, b, n]⟩ : Shape).Reduces [(1 : Fin 3)] ⟨2, ![a, n]⟩) (hφ : FKind.Formats .f32)
    (hacc : (0x00000000#32 : BitVec 32) = 0x00000000#32) (i : Fin a) (k : Fin n) :
    multiReduction .add [(1 : Fin 3)] ⟨2, ![a, n]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src (funext fun c => Fin.ext ?_)
  match c with
  | ⟨0, _⟩ => rfl
  | ⟨1, _⟩ => rfl
  | ⟨2, _⟩ => rfl

end Cert.UnitAxes

end
-- ==== Proof.KernelPoint.lean ====
/-
  What the kernel body stores, entry by entry, at the exact values.

  One grid point handles 4 channels of one image and 8 output rows, that is 2048 output pixels; pixel (r, l) of the
  8 × 256 tile sits at position r·256 + l.  For each pixel the body has four index words (left and right column, upper
  and lower row) and four weights.  It selects a column of every image row by a product with a 0/1 matrix — entry
  (w, pixel) is 1 exactly when w is the pixel's column word — and then sums over the 256 image rows against the row
  weights: 0/1 on the upper row times one weight plus 0/1 on the lower row times another.  The two column choices are
  added.  This module reads that chain of casts, broadcasts, two matrix products and two row sums at entry
  (channel, r, l) as a double sum over image rows and columns.
-/
import proofs.«181516_j61675730370560_1_alg».proof.Proof.Gen.KernelIdeal.Frame
import proofs.«181516_j61675730370560_1_alg».proof.Proof.LibFlatten
import proofs.«181516_j61675730370560_1_alg».proof.Proof.LibPlainDot
import proofs.«181516_j61675730370560_1_alg».proof.Proof.LibUnitAxes
import Idealize.ShloMosaic.Lib.ValueLayout
import Idealize.ShloMosaic.Lib.Pipeline.Value
import Idealize.ShloMosaic.PureOps.Ideal.Laws

noncomputable section

open scoped BigOperators

namespace Cert.KernelIdeal.Point

open Cert.KernelIdeal Cert.KernelIdeal.Gen Idealize.ShloMosaic Idealize.ShloMosaic.ValueIdx

/-- The position of pixel (r, l) of an 8 × 256 tile among its 2048 pixels. -/
def fl (r : Fin 8) (l : Fin 256) : Fin 2048 := ⟨r.val * 256 + l.val, by omega⟩

/-- The position of image row h of channel c among the 4 · 256 rows of a block. -/
def rw4 (c : Fin 4) (h : Fin 256) : Fin 1024 := ⟨c.val * 256 + h.val, by omega⟩

/-- The 0/1 entry that compares a row or column number with an index word, as a number. -/
def oh (w : Fin 256) (b : BitVec 32) : EReal :=
  FloatOps.sitofp (F := Ideal) .f32 ((IntOp.cmpi .eq (BitVec.ofNat 32 w.val) b).setWidth 32)

variable {α : Type}

/-- An 8 × 256 tile flattened to 2048 entries: position r·256 + l holds the tile's (0, r, l). -/
theorem tile_flat_apply (x : S1x8x256.Idx → α) (r : Fin 8) (l : Fin 256) :
    shapeCast S2048 (shapeCast S8x256 x shapeCasts_S1x8x256_S8x256) shapeCasts_S8x256_S2048 (ix1 (fl r l)) = x (ix3 (0 : Fin 1) r l) :=
  (Cert.Flatten.cast_ab_n_apply _ shapeCasts_S8x256_S2048 r l (fl r l) rfl).trans
    (shapeCast_1ab_ab_apply x shapeCasts_S1x8x256_S8x256 r l)

/-- The image block flattened to 1024 rows: row c·256 + h holds the block's (0, c, h, ·). -/
theorem image_rows_apply (x : S1x4x256x256.Idx → α) (c : Fin 4) (h w : Fin 256) :
    shapeCast S1024x256 (shapeCast S4x256x256 x shapeCasts_S1x4x256x256_S4x256x256) shapeCasts_S4x256x256_S1024x256 (ix2 (rw4 c h) w)
      = x (ix4 (0 : Fin 1) c h w) :=
  (Cert.Flatten.cast_abc_mc_apply _ shapeCasts_S4x256x256_S1024x256 c h w (rw4 c h) rfl).trans
    (shapeCast_1abc_abc_apply x shapeCasts_S1x4x256x256_S4x256x256 c h w)

/-- The 0/1 matrix built from a row of 2048 index words: entry (w, q) compares w with word q. -/
theorem onehot_row_apply (u : IVec S1x2048 32) (w : Fin 256) (q : Fin 2048) :
    (sitofp (F := Ideal) .f32 (extui 32 (cmpi .eq (iota .tc S256x2048 32 [0] iota_S256x2048_d0_w32)
      (broadcastTo S256x2048 u broadcasts_S1x2048_S256x2048)) natLt_1_32)) (ix2 w q) = oh w (u (ix2 (0 : Fin 1) q)) := by
  show FloatOps.sitofp (F := Ideal) .f32 ((IntOp.cmpi .eq (iota .tc S256x2048 32 [0] iota_S256x2048_d0_w32 (ix2 w q))
      (broadcastTo S256x2048 u broadcasts_S1x2048_S256x2048 (ix2 w q))).setWidth 32) = _
  rw [iota_single_apply, broadcastTo_1b_ab_apply]
  rfl

/-- The same from 2048 index words not yet laid as a row. -/
theorem onehot_apply (v : IVec S2048 32) (w : Fin 256) (q : Fin 2048) :
    (sitofp (F := Ideal) .f32 (extui 32 (cmpi .eq (iota .tc S256x2048 32 [0] iota_S256x2048_d0_w32)
      (broadcastTo S256x2048 (shapeCast S1x2048 v shapeCasts_S2048_S1x2048) broadcasts_S1x2048_S256x2048)) natLt_1_32)) (ix2 w q)
      = oh w (v (ix1 q)) := by
  rw [onehot_row_apply, shapeCast_a_1a_apply]

/-- A weight per pixel laid as a row and repeated down 256 rows: entry (h, q) is weight q. -/
theorem weight_rows_apply (v : FVec Ideal S2048 .f32) (h : Fin 256) (q : Fin 2048) :
    broadcastTo S256x2048 (shapeCast S1x2048 v shapeCasts_S2048_S1x2048) broadcasts_S1x2048_S256x2048 (ix2 h q) = v (ix1 q) := by
  rw [broadcastTo_1b_ab_apply, shapeCast_a_1a_apply]

/-- Selecting a column by a product: the 1024 × 256 rows times a 256 × 2048 matrix, into the zero accumulator, viewed
    as [4, 256, 2048]; entry (c, h, q) is the sum over columns w of row (c, h) at w times the matrix at (w, q). -/
theorem colsel_apply (l : FVec Ideal S1024x256 .bf16) (R : FVec Ideal S256x2048 .bf16) (c : Fin 4) (h : Fin 256) (q : Fin 2048) :
    shapeCast S4x256x2048 (matmul dot_S1024x256_S256x2048_S1024x2048_1_0_0_1_n_n none l R (constant S1024x2048 .f32 0x00000000#32))
      shapeCasts_S1024x2048_S4x256x2048 (ix3 c h q) = ∑ w : Fin 256, l (ix2 (rw4 c h) w) * R (ix2 w q) :=
  (Cert.Flatten.cast_mn_abn_apply _ shapeCasts_S1024x2048_S4x256x2048 c h q (rw4 c h) rfl).trans
    (Cert.PlainDot.matmul_zero_apply (M := 1024) (K := 256) (N := 2048) none l R (rw4 c h) q)

/-- The row weights: 0/1 on the upper row times one weight plus 0/1 on the lower row times another, one [256, 2048]
    sheet repeated over the 4 channels; entry (c, h, q). -/
theorem rowweight_apply (e0 e1 : FVec Ideal S256x2048 .f32) (a b : FVec Ideal S2048 .f32) (c : Fin 4) (h : Fin 256) (q : Fin 2048) :
    broadcastTo S4x256x2048 (shapeCast S1x256x2048
        (addf (mulf e0 (broadcastTo S256x2048 (shapeCast S1x2048 a shapeCasts_S2048_S1x2048) broadcasts_S1x2048_S256x2048))
              (mulf e1 (broadcastTo S256x2048 (shapeCast S1x2048 b shapeCasts_S2048_S1x2048) broadcasts_S1x2048_S256x2048)))
        shapeCasts_S256x2048_S1x256x2048) broadcasts_S1x256x2048_S4x256x2048 (ix3 c h q)
      = e0 (ix2 h q) * a (ix1 q) + e1 (ix2 h q) * b (ix1 q) := by
  rw [Cert.Flatten.bcast_1bc_abc_apply, shapeCast_ab_1ab_apply, addf_apply, mulf_apply, mulf_apply, weight_rows_apply,
    weight_rows_apply]

/-- A sum over the 256 image rows of a product of two [4, 256, 2048] arrays, entry (c, q). -/
theorem rowsum_apply (A B : FVec Ideal S4x256x2048 .f32) (c : Fin 4) (q : Fin 2048) :
    multiReduction .add [1] S4x2048 (mulf A B) 0x00000000#32 reduces_S4x256x2048_S4x2048 (.inl rfl) rfl (ix2 c q)
      = ∑ h : Fin 256, A (ix3 c h q) * B (ix3 c h q) :=
  Cert.UnitAxes.sum_middle_apply (mulf A B) reduces_S4x256x2048_S4x2048 (.inl rfl) rfl c q

/-- THE BODY'S VALUE at channel c, pixel (r, l): for each of the two column words, the sum over image rows h of the
    selected column's entry — itself the sum over columns w of the image at (c, h, w) times the 0/1 comparison of w with
    the column word — times the row weight at h; the two added. -/
theorem pay_apply (v5 v8 v11 : IVec S2048 32) (v14 v17 v20 v23 : FVec Ideal S2048 .f32) (v26 : FVec Ideal S1024x256 .bf16)
    (v28 : IVec S1x2048 32) (c : Fin 4) (r : Fin 8) (l : Fin 256) :
    k0_pay11 (F := Ideal) v5 v8 v11 v14 v17 v20 v23 v26 (iota .tc S256x2048 32 [0] iota_S256x2048_d0_w32) v28 (ix3 c r l)
      = (∑ h : Fin 256, (∑ w : Fin 256, v26 (ix2 (rw4 c h) w) * oh w (v28 (ix2 (0 : Fin 1) (fl r l))))
            * (oh h (v8 (ix1 (fl r l))) * v14 (ix1 (fl r l)) + oh h (v11 (ix1 (fl r l))) * v17 (ix1 (fl r l))))
        + (∑ h : Fin 256, (∑ w : Fin 256, v26 (ix2 (rw4 c h) w) * oh w (v5 (ix1 (fl r l))))
            * (oh h (v8 (ix1 (fl r l))) * v20 (ix1 (fl r l)) + oh h (v11 (ix1 (fl r l))) * v23 (ix1 (fl r l)))) := by
  unfold k0_pay11
  dsimp only
  refine (Cert.Flatten.cast_an_abc_apply _ shapeCasts_S4x2048_S4x8x256 rfl c r l (fl r l) rfl).trans ?_
  refine (addf_apply _ _ _).trans ?_
  refine congrArg₂ (· + ·) ?_ ?_
  · refine (rowsum_apply _ _ c (fl r l)).trans (Finset.sum_congr rfl fun h _ => congrArg₂ (· * ·) ?_ ?_)
    · refine (colsel_apply _ _ c h (fl r l)).trans (Finset.sum_congr rfl fun w _ => congrArg₂ (· * ·) rfl ?_)
      exact onehot_row_apply v28 w (fl r l)
    · refine (rowweight_apply _ _ _ _ c h (fl r l)).trans ?_
      rw [onehot_apply, onehot_apply]
  · refine (rowsum_apply _ _ c (fl r l)).trans (Finset.sum_congr rfl fun h _ => congrArg₂ (· * ·) ?_ ?_)
    · refine (colsel_apply _ _ c h (fl r l)).trans (Finset.sum_congr rfl fun w _ => congrArg₂ (· * ·) rfl ?_)
      exact onehot_apply v5 w (fl r l)
    · refine (rowweight_apply _ _ _ _ c h (fl r l)).trans ?_
      rw [onehot_apply, onehot_apply]

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- WHAT THE BODY LEAVES IN THE OUTPUT BLOCK, entry (·, c, r, l), from the nine input blocks: the image block x0, the
    four blocks of index words (left column x1, right column x2, upper row x3, lower row x4) and the four blocks of
    weights x5 … x8, each index word and weight read at the pixel (r, l). -/
theorem out_apply (x0 : Vec Ideal S1x4x256x256 .bf16) (x1 x2 x3 x4 : Vec Ideal S1x8x256 .i32)
    (x5 x6 x7 x8 : Vec Ideal S1x8x256 .f32) (u : Fin 1) (c : Fin 4) (r : Fin 8) (l : Fin 256) :
    out0_9 (F := Ideal) x0 x1 x2 x3 x4 x5 x6 x7 x8 (ix4 u c r l)
      = (∑ h : Fin 256, (∑ w : Fin 256, x0 (ix4 (0 : Fin 1) c h w) * oh w (x1 (ix3 (0 : Fin 1) r l)))
            * (oh h (x3 (ix3 (0 : Fin 1) r l)) * x5 (ix3 (0 : Fin 1) r l) + oh h (x4 (ix3 (0 : Fin 1) r l)) * x6 (ix3 (0 : Fin 1) r l)))
        + (∑ h : Fin 256, (∑ w : Fin 256, x0 (ix4 (0 : Fin 1) c h w) * oh w (x2 (ix3 (0 : Fin 1) r l)))
            * (oh h (x3 (ix3 (0 : Fin 1) r l)) * x7 (ix3 (0 : Fin 1) r l) + oh h (x4 (ix3 (0 : Fin 1) r l)) * x8 (ix3 (0 : Fin 1) r l))) := by
  unfold out0_9
  rw [View.canon_unit_zero zero4]
  simp only [View.ld_unit_zero (S := S1x8x256) zero3, View.ld_unit_zero (S := S1x4x256x256) zero4]
  unfold k0_pay1
  refine (shapeCast_abc_1abc_apply _ shapeCasts_S4x8x256_S1x4x8x256 u c r l).trans ?_
  refine (pay_apply _ _ _ _ _ _ _ _ _ c r l).trans ?_
  unfold k0_pay2 k0_pay3 k0_pay4 k0_pay5 k0_pay6 k0_pay7 k0_pay8 k0_pay9 k0_pay10
  simp only [tile_flat_apply, image_rows_apply, shapeCast_a_1a_apply]

end Cert.KernelIdeal.Point

end
-- ==== Proof.KernelArray.lean ====
/-
  From blocks to the whole output array.

  The grid has 8 · 16 · 32 points: point (n, cb, rb) handles image n, channels 4·cb … 4·cb + 3 and output rows
  8·rb … 8·rb + 7.  Its image block is channels 4·cb … of image n, whole; its eight blocks of index words and weights are
  rows 8·rb … of image n's sheet; its output block is the same channels and rows.  So what the body leaves in the output
  block at (·, c, r, l) is the whole-array function `KG` at (n, 4·cb + c, 8·rb + r, l), and since the output blocks tile
  the array, the array ends holding `KG` everywhere.
-/
import proofs.«181516_j61675730370560_1_alg».proof.Proof.Gen.KernelIdeal.Value
import proofs.«181516_j61675730370560_1_alg».proof.Proof.KernelPoint

set_option maxRecDepth 16384

noncomputable section

open scoped BigOperators

namespace Cert.KernelIdeal.Arr

open Cert.KernelIdeal Cert.KernelIdeal.Gen Cert.KernelIdeal.Point Idealize.ShloMosaic Idealize.ShloMosaic.ValueIdx
open Idealize.ShloMosaic.TcCoe Idealize.SL.Sem
open Idealize.ShloMosaic.Pipeline (Dat)

/-- The output at image n, channel c, pixel (p, q), from the image stack A0, the four arrays of index words (left and
    right column A1 A2, upper and lower row A3 A4) and the four arrays of weights A5 … A8. -/
def entry (A0 : S8x64x256x256.Idx → EReal) (A1 A2 A3 A4 : S8x256x256.Idx → BitVec 32) (A5 A6 A7 A8 : S8x256x256.Idx → EReal)
    (n : Fin 8) (c : Fin 64) (p q : Fin 256) : EReal :=
  (∑ h : Fin 256, (∑ w : Fin 256, A0 (ix4 n c h w) * oh w (A1 (ix3 n p q)))
      * (oh h (A3 (ix3 n p q)) * A5 (ix3 n p q) + oh h (A4 (ix3 n p q)) * A6 (ix3 n p q)))
  + (∑ h : Fin 256, (∑ w : Fin 256, A0 (ix4 n c h w) * oh w (A2 (ix3 n p q)))
      * (oh h (A3 (ix3 n p q)) * A7 (ix3 n p q) + oh h (A4 (ix3 n p q)) * A8 (ix3 n p q)))

/-- The whole output array as one function of the nine arrays the windows stage. -/
def KG (A0 : S8x64x256x256.Idx → EReal) (A1 A2 A3 A4 : S8x256x256.Idx → BitVec 32) (A5 A6 A7 A8 : S8x256x256.Idx → EReal) :
    S8x64x256x256.Idx → EReal :=
  fun i => entry A0 A1 A2 A3 A4 A5 A6 A7 A8 (i 0) (i 1) (i 2) (i 3)

variable (m : (ℓ : Loc nD τ sig) → Buf (Elt Ideal) ℓ)

/-- The block indices of the output window at a point are the point's three coordinates: below 8, 16 and 32. -/
theorem idx9_lt (t : Fin cfg0.N) : win0_9.index t 0 < 8 ∧ win0_9.index t 1 < 16 ∧ win0_9.index t 2 < 32 ∧ win0_9.index t 3 = 0 := by
  refine ⟨?_, ?_, ?_, rfl⟩
  · show (BitVec.ofNat 32 (grid0.coords t 0).val).toNat < 8
    have := (grid0.coords t 0).isLt
    rw [BitVec.toNat_ofNat]; exact lt_of_le_of_lt (Nat.mod_le _ _) this
  · show (BitVec.ofNat 32 (grid0.coords t 1).val).toNat < 16
    have := (grid0.coords t 1).isLt
    rw [BitVec.toNat_ofNat]; exact lt_of_le_of_lt (Nat.mod_le _ _) this
  · show (BitVec.ofNat 32 (grid0.coords t 2).val).toNat < 32
    have := (grid0.coords t 2).isLt
    rw [BitVec.toNat_ofNat]; exact lt_of_le_of_lt (Nat.mod_le _ _) this

/-- The image a point works on. -/
def pb (t : Fin cfg0.N) : Fin 8 := ⟨win0_9.index t 0, (idx9_lt t).1⟩
/-- The channel, in the stack, of channel c of the point's block. -/
def pc (t : Fin cfg0.N) (c : Fin 4) : Fin 64 := ⟨win0_9.index t 1 * 4 + c.val, by have := (idx9_lt t).2.1; omega⟩
/-- The output row, in the sheet, of row r of the point's block. -/
def pr (t : Fin cfg0.N) (r : Fin 8) : Fin 256 := ⟨win0_9.index t 2 * 8 + r.val, by have := (idx9_lt t).2.2.1; omega⟩

/-- The image window's block at point t, entry (0, c, h, w): the stack at (image of t, 4·(channel block of t) + c, h, w). -/
theorem image_apply (c : Dev nD) (t : Fin cfg0.N) (cc : Fin 4) (h w : Fin 256) :
    (iblk m c 0 t : Vec Ideal S1x4x256x256 .bf16) (ix4 (0 : Fin 1) cc h w)
      = ((V m c (Pipeline.arrRef spec0 0)) : S8x64x256x256.Idx → Elt Ideal .bf16) (ix4 (pb t) (pc t cc) h w) := by
  unfold iblk
  generalize V m c (Pipeline.arrRef spec0 0) = A
  rw [View.read_apply]
  show A _ = A _
  refine congrArg A (funext fun a => Fin.ext ?_)
  match a with
  | ⟨0, _⟩ => show win0_0.index t 0 * 1 + 1 * 0 = win0_9.index t 0; show win0_9.index t 0 * 1 + 1 * 0 = win0_9.index t 0; omega
  | ⟨1, _⟩ => show win0_0.index t 1 * 4 + 1 * cc.val = win0_9.index t 1 * 4 + cc.val; show win0_9.index t 1 * 4 + 1 * cc.val = win0_9.index t 1 * 4 + cc.val; omega
  | ⟨2, _⟩ => show win0_0.index t 2 * 256 + 1 * h.val = h.val; show 0 * 256 + 1 * h.val = h.val; omega
  | ⟨3, _⟩ => show win0_0.index t 3 * 256 + 1 * w.val = w.val; show 0 * 256 + 1 * w.val = w.val; omega

/-- Window 1's block at point t, entry (0, r, l): the array at (batch of t, 8·(row block of t) + r, l). -/
theorem tile1_apply (c : Dev nD) (t : Fin cfg0.N) (r : Fin 8) (l : Fin 256) :
    (iblk m c 1 t : Vec Ideal S1x8x256 .i32) (ix3 (0 : Fin 1) r l)
      = ((V m c (Pipeline.arrRef spec0 1)) : S8x256x256.Idx → Elt Ideal .i32) (ix3 (pb t) (pr t r) l) := by
  unfold iblk
  generalize V m c (Pipeline.arrRef spec0 1) = A
  rw [View.read_apply]
  show A _ = A _
  refine congrArg A (funext fun a => Fin.ext ?_)
  match a with
  | ⟨0, _⟩ => show win0_1.index t 0 * 1 + 1 * 0 = win0_9.index t 0; show win0_9.index t 0 * 1 + 1 * 0 = win0_9.index t 0; omega
  | ⟨1, _⟩ => show win0_1.index t 1 * 8 + 1 * r.val = win0_9.index t 2 * 8 + r.val; show win0_9.index t 2 * 8 + 1 * r.val = win0_9.index t 2 * 8 + r.val; omega
  | ⟨2, _⟩ => show win0_1.index t 2 * 256 + 1 * l.val = l.val; show 0 * 256 + 1 * l.val = l.val; omega

/-- Window 2's block at point t, entry (0, r, l): the array at (batch of t, 8·(row block of t) + r, l). -/
theorem tile2_apply (c : Dev nD) (t : Fin cfg0.N) (r : Fin 8) (l : Fin 256) :
    (iblk m c 2 t : Vec Ideal S1x8x256 .i32) (ix3 (0 : Fin 1) r l)
      = ((V m c (Pipeline.arrRef spec0 2)) : S8x256x256.Idx → Elt Ideal .i32) (ix3 (pb t) (pr t r) l) := by
  unfold iblk
  generalize V m c (Pipeline.arrRef spec0 2) = A
  rw [View.read_apply]
  show A _ = A _
  refine congrArg A (funext fun a => Fin.ext ?_)
  match a with
  | ⟨0, _⟩ => show win0_2.index t 0 * 1 + 1 * 0 = win0_9.index t 0; show win0_9.index t 0 * 1 + 1 * 0 = win0_9.index t 0; omega
  | ⟨1, _⟩ => show win0_2.index t 1 * 8 + 1 * r.val = win0_9.index t 2 * 8 + r.val; show win0_9.index t 2 * 8 + 1 * r.val = win0_9.index t 2 * 8 + r.val; omega
  | ⟨2, _⟩ => show win0_2.index t 2 * 256 + 1 * l.val = l.val; show 0 * 256 + 1 * l.val = l.val; omega

/-- Window 3's block at point t, entry (0, r, l): the array at (batch of t, 8·(row block of t) + r, l). -/
theorem tile3_apply (c : Dev nD) (t : Fin cfg0.N) (r : Fin 8) (l : Fin 256) :
    (iblk m c 3 t : Vec Ideal S1x8x256 .i32) (ix3 (0 : Fin 1) r l)
      = ((V m c (Pipeline.arrRef spec0 3)) : S8x256x256.Idx → Elt Ideal .i32) (ix3 (pb t) (pr t r) l) := by
  unfold iblk
  generalize V m c (Pipeline.arrRef spec0 3) = A
  rw [View.read_apply]
  show A _ = A _
  refine congrArg A (funext fun a => Fin.ext ?_)
  match a with
  | ⟨0, _⟩ => show win0_3.index t 0 * 1 + 1 * 0 = win0_9.index t 0; show win0_9.index t 0 * 1 + 1 * 0 = win0_9.index t 0; omega
  | ⟨1, _⟩ => show win0_3.index t 1 * 8 + 1 * r.val = win0_9.index t 2 * 8 + r.val; show win0_9.index t 2 * 8 + 1 * r.val = win0_9.index t 2 * 8 + r.val; omega
  | ⟨2, _⟩ => show win0_3.index t 2 * 256 + 1 * l.val = l.val; show 0 * 256 + 1 * l.val = l.val; omega

/-- Window 4's block at point t, entry (0, r, l): the array at (batch of t, 8·(row block of t) + r, l). -/
theorem tile4_apply (c : Dev nD) (t : Fin cfg0.N) (r : Fin 8) (l : Fin 256) :
    (iblk m c 4 t : Vec Ideal S1x8x256 .i32) (ix3 (0 : Fin 1) r l)
      = ((V m c (Pipeline.arrRef spec0 4)) : S8x256x256.Idx → Elt Ideal .i32) (ix3 (pb t) (pr t r) l) := by
  unfold iblk
  generalize V m c (Pipeline.arrRef spec0 4) = A
  rw [View.read_apply]
  show A _ = A _
  refine congrArg A (funext fun a => Fin.ext ?_)
  match a with
  | ⟨0, _⟩ => show win0_4.index t 0 * 1 + 1 * 0 = win0_9.index t 0; show win0_9.index t 0 * 1 + 1 * 0 = win0_9.index t 0; omega
  | ⟨1, _⟩ => show win0_4.index t 1 * 8 + 1 * r.val = win0_9.index t 2 * 8 + r.val; show win0_9.index t 2 * 8 + 1 * r.val = win0_9.index t 2 * 8 + r.val; omega
  | ⟨2, _⟩ => show win0_4.index t 2 * 256 + 1 * l.val = l.val; show 0 * 256 + 1 * l.val = l.val; omega

/-- Window 5's block at point t, entry (0, r, l): the array at (batch of t, 8·(row block of t) + r, l). -/
theorem tile5_apply (c : Dev nD) (t : Fin cfg0.N) (r : Fin 8) (l : Fin 256) :
    (iblk m c 5 t : Vec Ideal S1x8x256 .f32) (ix3 (0 : Fin 1) r l)
      = ((V m c (Pipeline.arrRef spec0 5)) : S8x256x256.Idx → Elt Ideal .f32) (ix3 (pb t) (pr t r) l) := by
  unfold iblk
  generalize V m c (Pipeline.arrRef spec0 5) = A
  rw [View.read_apply]
  show A _ = A _
  refine congrArg A (funext fun a => Fin.ext ?_)
  match a with
  | ⟨0, _⟩ => show win0_5.index t 0 * 1 + 1 * 0 = win0_9.index t 0; show win0_9.index t 0 * 1 + 1 * 0 = win0_9.index t 0; omega
  | ⟨1, _⟩ => show win0_5.index t 1 * 8 + 1 * r.val = win0_9.index t 2 * 8 + r.val; show win0_9.index t 2 * 8 + 1 * r.val = win0_9.index t 2 * 8 + r.val; omega
  | ⟨2, _⟩ => show win0_5.index t 2 * 256 + 1 * l.val = l.val; show 0 * 256 + 1 * l.val = l.val; omega

/-- Window 6's block at point t, entry (0, r, l): the array at (batch of t, 8·(row block of t) + r, l). -/
theorem tile6_apply (c : Dev nD) (t : Fin cfg0.N) (r : Fin 8) (l : Fin 256) :
    (iblk m c 6 t : Vec Ideal S1x8x256 .f32) (ix3 (0 : Fin 1) r l)
      = ((V m c (Pipeline.arrRef spec0 6)) : S8x256x256.Idx → Elt Ideal .f32) (ix3 (pb t) (pr t r) l) := by
  unfold iblk
  generalize V m c (Pipeline.arrRef spec0 6) = A
  rw [View.read_apply]
  show A _ = A _
  refine congrArg A (funext fun a => Fin.ext ?_)
  match a with
  | ⟨0, _⟩ => show win0_6.index t 0 * 1 + 1 * 0 = win0_9.index t 0; show win0_9.index t 0 * 1 + 1 * 0 = win0_9.index t 0; omega
  | ⟨1, _⟩ => show win0_6.index t 1 * 8 + 1 * r.val = win0_9.index t 2 * 8 + r.val; show win0_9.index t 2 * 8 + 1 * r.val = win0_9.index t 2 * 8 + r.val; omega
  | ⟨2, _⟩ => show win0_6.index t 2 * 256 + 1 * l.val = l.val; show 0 * 256 + 1 * l.val = l.val; omega

/-- Window 7's block at point t, entry (0, r, l): the array at (batch of t, 8·(row block of t) + r, l). -/
theorem tile7_apply (c : Dev nD) (t : Fin cfg0.N) (r : Fin 8) (l : Fin 256) :
    (iblk m c 7 t : Vec Ideal S1x8x256 .f32) (ix3 (0 : Fin 1) r l)
      = ((V m c (Pipeline.arrRef spec0 7)) : S8x256x256.Idx → Elt Ideal .f32) (ix3 (pb t) (pr t r) l) := by
  unfold iblk
  generalize V m c (Pipeline.arrRef spec0 7) = A
  rw [View.read_apply]
  show A _ = A _
  refine congrArg A (funext fun a => Fin.ext ?_)
  match a with
  | ⟨0, _⟩ => show win0_7.index t 0 * 1 + 1 * 0 = win0_9.index t 0; show win0_9.index t 0 * 1 + 1 * 0 = win0_9.index t 0; omega
  | ⟨1, _⟩ => show win0_7.index t 1 * 8 + 1 * r.val = win0_9.index t 2 * 8 + r.val; show win0_9.index t 2 * 8 + 1 * r.val = win0_9.index t 2 * 8 + r.val; omega
  | ⟨2, _⟩ => show win0_7.index t 2 * 256 + 1 * l.val = l.val; show 0 * 256 + 1 * l.val = l.val; omega

/-- Window 8's block at point t, entry (0, r, l): the array at (batch of t, 8·(row block of t) + r, l). -/
theorem tile8_apply (c : Dev nD) (t : Fin cfg0.N) (r : Fin 8) (l : Fin 256) :
    (iblk m c 8 t : Vec Ideal S1x8x256 .f32) (ix3 (0 : Fin 1) r l)
      = ((V m c (Pipeline.arrRef spec0 8)) : S8x256x256.Idx → Elt Ideal .f32) (ix3 (pb t) (pr t r) l) := by
  unfold iblk
  generalize V m c (Pipeline.arrRef spec0 8) = A
  rw [View.read_apply]
  show A _ = A _
  refine congrArg A (funext fun a => Fin.ext ?_)
  match a with
  | ⟨0, _⟩ => show win0_8.index t 0 * 1 + 1 * 0 = win0_9.index t 0; show win0_9.index t 0 * 1 + 1 * 0 = win0_9.index t 0; omega
  | ⟨1, _⟩ => show win0_8.index t 1 * 8 + 1 * r.val = win0_9.index t 2 * 8 + r.val; show win0_9.index t 2 * 8 + 1 * r.val = win0_9.index t 2 * 8 + r.val; omega
  | ⟨2, _⟩ => show win0_8.index t 2 * 256 + 1 * l.val = l.val; show 0 * 256 + 1 * l.val = l.val; omega

/-- An entry of the output block at point t sits in the array at (image of t, its channel, its row, l). -/
theorem out_emb (t : Fin cfg0.N) (u : Fin 1) (cc : Fin 4) (r : Fin 8) (l : Fin 256) :
    (((cfg0.win 9).blk t).view.emb (ix4 u cc r l) : S8x64x256x256.Idx) = ix4 (pb t) (pc t cc) (pr t r) l := by
  funext a
  apply Fin.ext
  match a with
  | ⟨0, _⟩ => show win0_9.index t 0 * 1 + 1 * u.val = win0_9.index t 0; have := u.isLt; omega
  | ⟨1, _⟩ => show win0_9.index t 1 * 4 + 1 * cc.val = win0_9.index t 1 * 4 + cc.val; omega
  | ⟨2, _⟩ => show win0_9.index t 2 * 8 + 1 * r.val = win0_9.index t 2 * 8 + r.val; omega
  | ⟨3, _⟩ => show win0_9.index t 3 * 256 + 1 * l.val = l.val; show 0 * 256 + 1 * l.val = l.val; omega

/-- WHAT POINT t WRITES BACK is block t of `KG` of the nine arrays as the launch finds them. -/
theorem flushed_eq (c : Dev nD) (t : Fin cfg0.N) :
    (dats m 0 c).flushed 9 t = ((cfg0.win 9).blk t).view.read (Elt Ideal) (KG (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8))) := by
  rw [Value.flushed9]
  funext y
  obtain ⟨u, cc, r, l, rfl⟩ : ∃ (u : Fin 1) (cc : Fin 4) (r : Fin 8) (l : Fin 256), y = ix4 u cc r l :=
    ⟨y 0, y 1, y 2, y 3, eq_ix4 y⟩
  rw [View.read_apply, out_emb]
  show out0_9 (iblk m c 0 t) (iblk m c 1 t) (iblk m c 2 t) (iblk m c 3 t) (iblk m c 4 t) (iblk m c 5 t) (iblk m c 6 t) (iblk m c 7 t) (iblk m c 8 t) (ix4 u cc r l)
    = entry (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (pb t) (pc t cc) (pr t r) l
  refine (out_apply (iblk m c 0 t) (iblk m c 1 t) (iblk m c 2 t) (iblk m c 3 t) (iblk m c 4 t) (iblk m c 5 t) (iblk m c 6 t) (iblk m c 7 t) (iblk m c 8 t) u cc r l).trans ?_
  unfold entry
  simp only [image_apply m c t, tile1_apply m c t, tile2_apply m c t, tile3_apply m c t, tile4_apply m c t, tile5_apply m c t,
    tile6_apply m c t, tile7_apply m c t, tile8_apply m c t]

/-- An index of the array is in point t's block iff each coordinate is in the block's range on its axis. -/
theorem mem_blk (t : Fin cfg0.N) (i : S8x64x256x256.Idx) :
    i ∈ ((cfg0.win 9).blk t).view.set ↔ ∀ a : Fin 4, win0_9.index t a * S1x4x8x256.size a ≤ (i a).val ∧ (i a).val < win0_9.index t a * S1x4x8x256.size a + S1x4x8x256.size a := by
  show i ∈ ((View.whole main_v75).slice (win0_9.rect t)).set ↔ _
  rw [View.set_slice_whole, Rect.mem_set_unit]
  exact Iff.rfl

theorem stride0 : grid0.stride 0 = 512 := by decide
theorem stride1 : grid0.stride 1 = 32 := by decide
theorem stride2 : grid0.stride 2 = 1 := by decide

/-- Every entry of the array lies in the block of the point (its image, its channel / 4, its row / 8). -/
theorem cover (i : S8x64x256x256.Idx) :
    ∃ t : Fin cfg0.N, (cfg0.win 9).flush t = true ∧ i ∈ ((cfg0.win 9).blk t).view.set := by
  have h0 : (i 0).val < 8 := (i 0).isLt
  have h1 : (i 1).val < 64 := (i 1).isLt
  have h2 : (i 2).val < 256 := (i 2).isLt
  have h3 : (i 3).val < 256 := (i 3).isLt
  have hN : cfg0.N = 4096 := N_0
  let t : Fin cfg0.N := ⟨((i 0).val * 16 + (i 1).val / 4) * 32 + (i 2).val / 8, by rw [hN]; omega⟩
  have ht : t.val = ((i 0).val * 16 + (i 1).val / 4) * 32 + (i 2).val / 8 := rfl
  have c0 : win0_9.index t 0 = (i 0).val := by
    show (BitVec.ofNat 32 (t.val / grid0.stride 0 % 8)).toNat = _
    rw [BitVec.toNat_ofNat, stride0, ht]; omega
  have c1 : win0_9.index t 1 = (i 1).val / 4 := by
    show (BitVec.ofNat 32 (t.val / grid0.stride 1 % 16)).toNat = _
    rw [BitVec.toNat_ofNat, stride1, ht]; omega
  have c2 : win0_9.index t 2 = (i 2).val / 8 := by
    show (BitVec.ofNat 32 (t.val / grid0.stride 2 % 32)).toNat = _
    rw [BitVec.toNat_ofNat, stride2, ht]; omega
  refine ⟨t, flush0_9 t, ?_⟩
  rw [mem_blk]
  intro a
  match a with
  | ⟨0, _⟩ => show win0_9.index t 0 * 1 ≤ (i 0).val ∧ (i 0).val < win0_9.index t 0 * 1 + 1; rw [c0]; omega
  | ⟨1, _⟩ => show win0_9.index t 1 * 4 ≤ (i 1).val ∧ (i 1).val < win0_9.index t 1 * 4 + 4; rw [c1]; omega
  | ⟨2, _⟩ => show win0_9.index t 2 * 8 ≤ (i 2).val ∧ (i 2).val < win0_9.index t 2 * 8 + 8; rw [c2]; omega
  | ⟨3, _⟩ => show 0 * 256 ≤ (i 3).val ∧ (i 3).val < 0 * 256 + 256; omega

/-- THE ARRAY after the run is `KG` of the nine staged arrays. -/
theorem final (c : Dev nD) : (dats m 0 c).arrAt 9 cfg0.N = KG (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) :=
  (dats m 0 c).arrAt_eq_of_cover 9 _ (fun t _ => flushed_eq m c t) cover

end Cert.KernelIdeal.Arr

end
-- ==== Proof.Spec.lean ====
/-
  Bilinear grid sampling of an [8, 64, 256, 256] image stack at an [8, 256, 256, 2] field of sampling positions
  (corners unaligned, zero padding outside the image).

  A position (gx, gy) in [-1, 1]² is carried to pixel coordinates ix = ((gx + 1)·256 − 1)/2, iy likewise; the four
  neighbouring pixels are (⌊ix⌋, ⌊iy⌋), (⌊ix⌋, ⌊iy⌋+1), (⌊ix⌋+1, ⌊iy⌋), (⌊ix⌋+1, ⌊iy⌋+1) with the bilinear weights
  wa = (ix1−ix)(iy1−iy), wb = (ix1−ix)(iy−iy0), wc = (ix−ix0)(iy1−iy), wd = (ix−ix0)(iy−iy0).  A neighbour outside the
  image contributes nothing; its coordinates are clipped into [0, 255] before they are used as indices.

  This module names every stage of that chain as a function of the field of positions, over any float instance, in
  the vocabulary of the host operations, so that two programs applying the same chain can be compared stage by stage
  without opening it.
-/
import Idealize.ShloMosaic.PureOps
import Idealize.ShloMosaic.PureOps.Ideal
import Idealize.ShloMosaic.Lib.ValueIdx

noncomputable section

namespace Cert.GridSample

open Idealize.ShloMosaic

/-- The image stack: batch, channel, row, column. -/
abbrev SX : Shape := ⟨4, ![8, 64, 256, 256]⟩
/-- The sampling positions: batch, output row, output column, (x, y). -/
abbrev SG : Shape := ⟨4, ![8, 256, 256, 2]⟩
/-- One coordinate of the positions, the last axis kept at extent one. -/
abbrev SG1 : Shape := ⟨4, ![8, 256, 256, 1]⟩
/-- One value per output pixel: batch, output row, output column. -/
abbrev SP : Shape := ⟨3, ![8, 256, 256]⟩
/-- A scalar. -/
abbrev S0 : Shape := ⟨0, ![]⟩

theorem slice_x : SG.Slices ![0, 0, 0, 0] SG1 := by decide
theorem slice_y : SG.Slices ![0, 0, 0, 1] SG1 := by decide
theorem drop_unit : SG1.ShapeCasts SP := by decide
theorem splat_dims : S0.BroadcastsInDim SP (![] : Fin 0 → Fin SP.rank) := by decide

variable {F : FTy → Type} [FloatOps F]

/-- A float constant at every output pixel. -/
def splat (w : BitVec 32) : FVec F SP .f32 := broadcastInDim SP ![] splat_dims (constant S0 .f32 w)

/-- The x coordinates of the sampling positions. -/
def gx (g : FVec F SG .f32) : FVec F SP .f32 := shapeCast SP (extractStridedSlice SG1 ![0, 0, 0, 0] g slice_x) drop_unit
/-- The y coordinates of the sampling positions. -/
def gy (g : FVec F SG .f32) : FVec F SP .f32 := shapeCast SP (extractStridedSlice SG1 ![0, 0, 0, 1] g slice_y) drop_unit

/-- From [-1, 1] to pixel coordinates of an axis of 256 pixels, corners unaligned: ((z + 1)·256 − 1)/2. -/
def unnorm (z : FVec F SP .f32) : FVec F SP .f32 :=
  Host.divf (subf (mulf (addf z (splat 0x3F800000#32)) (splat 0x43800000#32)) (splat 0x3F800000#32)) (splat 0x40000000#32)

def ix (g : FVec F SG .f32) : FVec F SP .f32 := unnorm (gx g)
def iy (g : FVec F SG .f32) : FVec F SP .f32 := unnorm (gy g)
/-- The left neighbour's column, ⌊ix⌋, and the upper neighbour's row, ⌊iy⌋. -/
def ix0 (g : FVec F SG .f32) : FVec F SP .f32 := Host.floor (ix g)
def iy0 (g : FVec F SG .f32) : FVec F SP .f32 := Host.floor (iy g)
/-- The right neighbour's column and the lower neighbour's row. -/
def ix1 (g : FVec F SG .f32) : FVec F SP .f32 := addf (ix0 g) (splat 0x3F800000#32)
def iy1 (g : FVec F SG .f32) : FVec F SP .f32 := addf (iy0 g) (splat 0x3F800000#32)

/-- The bilinear weights of the four neighbours. -/
def wa (g : FVec F SG .f32) : FVec F SP .f32 := mulf (subf (ix1 g) (ix g)) (subf (iy1 g) (iy g))
def wb (g : FVec F SG .f32) : FVec F SP .f32 := mulf (subf (ix1 g) (ix g)) (subf (iy g) (iy0 g))
def wc (g : FVec F SG .f32) : FVec F SP .f32 := mulf (subf (ix g) (ix0 g)) (subf (iy1 g) (iy g))
def wd (g : FVec F SG .f32) : FVec F SP .f32 := mulf (subf (ix g) (ix0 g)) (subf (iy g) (iy0 g))

/-- 0 ≤ z, one bit per output pixel. -/
def ge0 (z : FVec F SP .f32) : IVec SP 1 := cmpf .oge z (splat 0x00000000#32)
/-- z ≤ 255, one bit per output pixel. -/
def le255 (z : FVec F SP .f32) : IVec SP 1 := cmpf .ole z (splat 0x437F0000#32)
/-- A pixel coordinate inside the image: 0 ≤ z ≤ 255. -/
def inside (z : FVec F SP .f32) : IVec SP 1 := andi (ge0 z) (le255 z)

/-- A pixel coordinate clipped into [0, 255] and read as a 32-bit integer: the index actually used. -/
def clipIdx (z : FVec F SP .f32) : IVec SP 32 :=
  fptosi 32 (minimumf (broadcastInDim SP ![] splat_dims (sitofp .f32 (constantI S0 32 255#32)))
    (maximumf (broadcastInDim SP ![] splat_dims (sitofp .f32 (constantI S0 32 0#32))) z))

end Cert.GridSample

end
-- ==== Proof.RefSpec.lean ====
/-
  The reference's result as one term over the shared chain.

  For each of the four neighbouring pixels of a sampling position the reference gathers the image at the neighbour's
  clipped row and column (after a wrap of negative indices, which a clipped index never needs), multiplies by the bit
  "the neighbour is inside the image" read as 1 or 0 — one bit per output pixel, given to every channel — and then by the
  neighbour's bilinear weight, again given to every channel; the four products are added left to right.  This module
  names those pieces over any float instance, in the vocabulary of the host operations.
-/
import proofs.«181516_j61675730370560_1_alg».proof.Proof.Gen.ReferenceIdeal
import proofs.«181516_j61675730370560_1_alg».proof.Proof.Spec

noncomputable section

namespace Cert.RefPoint

open Cert.ReferenceIdeal Cert.GridSample Idealize.ShloMosaic

variable {F : FTy → Type} [FloatOps F]

/-- The four comparisons of a corner, conjoined in the order the reference takes them:
    `((0 ≤ x ∧ x ≤ 255) ∧ 0 ≤ y) ∧ y ≤ 255`. -/
def mask4 (zx zy : FVec F SP .f32) : IVec SP 1 := andi (andi (andi (ge0 zx) (le255 zx)) (ge0 zy)) (le255 zy)

/-- An index array with its negative entries wrapped by adding `256`. -/
def wrapIdx (b : IVec SP 32) : IVec SP 32 :=
  select (cmpi .slt b (broadcastInDim SP ![] splat_dims (constantI S0 32 0#32)))
    (addi b (broadcastInDim SP ![] splat_dims (constantI S0 32 256#32))) b

/-- A per-pixel field given to every channel: first a unit channel axis, then `64` copies along it. -/
def chan {β : Type} (v : SP.Idx → β) : SX.Idx → β :=
  broadcastInDim S8x64x256x256 ![0, 1, 2, 3] Gen.bcast_S8x1x256x256_S8x64x256x256_0_1_2_3
    (broadcastInDim S8x1x256x256 ![0, 2, 3] Gen.bcast_S8x256x256_S8x1x256x256_0_2_3 v)

/-- One corner's term before its weight: the image gathered at the clipped (and wrapped) row `zy` and column `zx`,
    times the corner's "inside the image" bit as a float. -/
def corner (x0 : FVec F SX .f32) (zx zy : FVec F SP .f32) : FVec F SX .f32 :=
  mulf
    (Host.gather gather_S8x64x256x256_S8x256x256x2_S8x64x256x256_1_23_0_0_23_3_16411 x0
      (concatenate S8x256x256x2 3
        [⟨S8x256x256x1, broadcastInDim S8x256x256x1 ![0, 1, 2] Gen.bcast_S8x256x256_S8x256x256x1_0_1_2
            (wrapIdx (clipIdx zy))⟩,
         ⟨S8x256x256x1, broadcastInDim S8x256x256x1 ![0, 1, 2] Gen.bcast_S8x256x256_S8x256x256x1_0_1_2
            (wrapIdx (clipIdx zx))⟩]
        Gen.concatenates_S8x256x256x1_S8x256x256x1_S8x256x256x2_d3))
    (chan (uitofp .f32 (mask4 zx zy)))

/-- THE REFERENCE'S RESULT, as a whole array: the four corner terms, each times its weight given to every channel, added
    left to right. -/
def refResult (x0 : FVec F SX .f32) (g : FVec F SG .f32) : FVec F SX .f32 :=
  addf (addf (addf (mulf (corner x0 (ix0 g) (iy0 g)) (chan (wa g))) (mulf (corner x0 (ix0 g) (iy1 g)) (chan (wb g))))
    (mulf (corner x0 (ix1 g) (iy0 g)) (chan (wc g)))) (mulf (corner x0 (ix1 g) (iy1 g)) (chan (wd g)))

end Cert.RefPoint

end
-- ==== Proof.RefStages.lean ====
import proofs.«181516_j61675730370560_1_alg».proof.Proof.Gen.ReferenceIdeal.Read
import proofs.«181516_j61675730370560_1_alg».proof.Proof.RefSpec

/-!
# The program's stages are the specification's, as whole arrays

Each stage of the printed reference is identified with the stage of the same name in the specification's chain — the
pixel coordinates, their floors, the four weights, the four corner terms, and the result — over any float instance, by
unfolding definitions only: no entry of any array is ever looked at. The shape facts the two texts cite are
propositions, so they agree whichever proof is given.
-/

noncomputable section

namespace Cert.RefPoint

open Cert.ReferenceIdeal Cert.ReferenceIdeal.Read Cert.GridSample Idealize.ShloMosaic

section Stages
variable {F : FTy → Type} [FloatOps F] (x0 : FVec F SX .f32) (g : FVec F SG .f32)

theorem v11_eq : val_main_v11 (F := F) g = ix g := rfl
theorem v19_eq : val_main_v19 (F := F) g = iy g := rfl
theorem v20_eq : val_main_v20 (F := F) g = ix0 g := rfl
theorem v21_eq : val_main_v21 (F := F) g = iy0 g := rfl
theorem v23_eq : val_main_v23 (F := F) g = ix1 g := rfl
theorem v25_eq : val_main_v25 (F := F) g = iy1 g := rfl
theorem v28_eq : val_main_v28 (F := F) g = wa g := rfl
theorem v31_eq : val_main_v31 (F := F) g = wb g := rfl
theorem v34_eq : val_main_v34 (F := F) g = wc g := rfl
theorem v37_eq : val_main_v37 (F := F) g = wd g := rfl

/-- The upper-left corner's term: column `ix0`, row `iy0`. -/
theorem v70_eq : val_main_v70 (F := F) x0 g = corner x0 (ix0 g) (iy0 g) := rfl
/-- The lower-left corner's term: column `ix0`, row `iy1`. -/
theorem v103_eq : val_main_v103 (F := F) x0 g = corner x0 (ix0 g) (iy1 g) := rfl
/-- The upper-right corner's term: column `ix1`, row `iy0`. -/
theorem v136_eq : val_main_v136 (F := F) x0 g = corner x0 (ix1 g) (iy0 g) := rfl
/-- The lower-right corner's term: column `ix1`, row `iy1`. -/
theorem v169_eq : val_main_v169 (F := F) x0 g = corner x0 (ix1 g) (iy1 g) := rfl

/-- THE PRINTED REFERENCE'S RESULT IS THE SPECIFICATION'S, as a whole array: the four corner terms, each times its weight
    given to every channel, added left to right. -/
theorem v184_eq : Cert.ReferenceIdeal.Read.val_main_v184 (F := F) x0 g = refResult x0 g := by
  unfold refResult val_main_v184 val_main_v180 val_main_v176 val_main_v172 val_main_v175 val_main_v179 val_main_v183
  rw [v70_eq, v103_eq, v136_eq, v169_eq]
  rfl

end Stages

end Cert.RefPoint

end
-- ==== Proof.KernelHost.lean ====
/-
  What the nine staged arrays hold when the kernel is launched.

  Before the launch the program computes, from the field of sampling positions, the four clipped index arrays (left and
  right column, upper and lower row) and the four weight arrays, each weight replaced by zero where its neighbour lies
  outside the image; and it narrows the image stack's format, which changes no value here.  Each staged array is the
  corresponding stage of the shared chain of `Spec`, over any float instance.
-/
import proofs.«181516_j61675730370560_1_alg».proof.Proof.Gen.KernelIdeal.Frame
import proofs.«181516_j61675730370560_1_alg».proof.Proof.Spec
import Idealize.ShloMosaic.Lib.StableHlo.Run

set_option maxRecDepth 16384

noncomputable section

namespace Cert.KernelIdeal.Host

open Cert.KernelIdeal Cert.KernelIdeal.Gen Cert.GridSample Idealize.ShloMosaic Idealize.ShloMosaic.StableHlo
open Idealize.SL.Sem Idealize.ShloMosaic.TcCoe

variable {F : FTy → Type} [FloatOps F]

/-- A weight kept where both of its neighbour's coordinates are inside the image, zero elsewhere. -/
def masked (zx zy w : FVec F SP .f32) : FVec F SP .f32 :=
  select (andi (inside zx) (inside zy)) w (splat 0x00000000#32)

set_option maxHeartbeats 2000000 in
/-- The image stack in the narrower format. -/
theorem stack (m : (ℓ : Loc nD τ sig) → Buf (Elt F) ℓ) (c : Dev nD) :
    (V m c main_v74 : S8x64x256x256.Idx → Elt F .bf16) = truncf .bf16 (m ((c : Thread nD τ).loc main_arg0)) bitsLt_bf16_f32 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The left neighbour's column, clipped. -/
theorem col0 (m : (ℓ : Loc nD τ sig) → Buf (Elt F) ℓ) (c : Dev nD) :
    (V m c main_v67 : S8x256x256.Idx → BitVec 32) = clipIdx (ix0 (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The right neighbour's column, clipped. -/
theorem col1 (m : (ℓ : Loc nD τ sig) → Buf (Elt F) ℓ) (c : Dev nD) :
    (V m c main_v69 : S8x256x256.Idx → BitVec 32) = clipIdx (ix1 (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The upper neighbour's row, clipped. -/
theorem row0 (m : (ℓ : Loc nD τ sig) → Buf (Elt F) ℓ) (c : Dev nD) :
    (V m c main_v71 : S8x256x256.Idx → BitVec 32) = clipIdx (iy0 (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The lower neighbour's row, clipped. -/
theorem row1 (m : (ℓ : Loc nD τ sig) → Buf (Elt F) ℓ) (c : Dev nD) :
    (V m c main_v73 : S8x256x256.Idx → BitVec 32) = clipIdx (iy1 (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The upper-left weight, zero where that neighbour is outside. -/
theorem wgt_a (m : (ℓ : Loc nD τ sig) → Buf (Elt F) ℓ) (c : Dev nD) :
    (V m c main_v59 : S8x256x256.Idx → Elt F .f32) = masked (ix0 (m ((c : Thread nD τ).loc main_arg1))) (iy0 (m ((c : Thread nD τ).loc main_arg1))) (wa (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The lower-left weight, zero where that neighbour is outside. -/
theorem wgt_b (m : (ℓ : Loc nD τ sig) → Buf (Elt F) ℓ) (c : Dev nD) :
    (V m c main_v61 : S8x256x256.Idx → Elt F .f32) = masked (ix0 (m ((c : Thread nD τ).loc main_arg1))) (iy1 (m ((c : Thread nD τ).loc main_arg1))) (wb (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The upper-right weight, zero where that neighbour is outside. -/
theorem wgt_c (m : (ℓ : Loc nD τ sig) → Buf (Elt F) ℓ) (c : Dev nD) :
    (V m c main_v63 : S8x256x256.Idx → Elt F .f32) = masked (ix1 (m ((c : Thread nD τ).loc main_arg1))) (iy0 (m ((c : Thread nD τ).loc main_arg1))) (wc (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

set_option maxHeartbeats 2000000 in
/-- The lower-right weight, zero where that neighbour is outside. -/
theorem wgt_d (m : (ℓ : Loc nD τ sig) → Buf (Elt F) ℓ) (c : Dev nD) :
    (V m c main_v65 : S8x256x256.Idx → Elt F .f32) = masked (ix1 (m ((c : Thread nD τ).loc main_arg1))) (iy1 (m ((c : Thread nD τ).loc main_arg1))) (wd (m ((c : Thread nD τ).loc main_arg1))) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  all_goals rfl

end Cert.KernelIdeal.Host

end
-- ==== Proof.RefGather.lean ====
import proofs.«181516_j61675730370560_1_alg».proof.Proof.Gen.ReferenceIdeal
import Idealize.ShloMosaic.Lib.ValueIdx
import Idealize.ShloMosaic.Lib.Pipeline.Value

/-!
# The reference's batched gather, read at an index

The reference samples the image at integer pixel positions with one gather per corner: batch axis `0` of the image
is paired with batch axis `0` of the start indices, the channel axis `1` is the only offset axis (a whole slice of
`64` channels), and the start index, a pair `(row, column)` on the last axis of the start indices, names the
collapsed axes `2` and `3`. Each component is read as a signed integer and clamped into `[0, 255]`.

The start indices are the concatenation along the last axis of the row-index array and the column-index array, each
first given a trailing unit axis. Read at `(n, c, p, q)` the gather is therefore the image at
`(n, c, pick (row index at (n, p, q)), pick (column index at (n, p, q)))`.
-/

namespace Cert.RefGather

open Cert.ReferenceIdeal Idealize.ShloMosaic Idealize.ShloMosaic.ValueIdx

/-- the row or column a start-index word selects: read signed, clamped into the image -/
def pick (b : BitVec 32) : Fin 256 := ⟨min b.toInt.toNat 255, by omega⟩

theorem pick_val (b : BitVec 32) : (pick b).val = min b.toInt.toNat 255 := rfl

local notation "G" => gather_S8x64x256x256_S8x256x256x2_S8x64x256x256_1_23_0_0_23_3_16411

/-- The start-indices index at which result index `(n, c, p, q)` reads the ROW component of its start index:
    `(n, p, q, 0)`. -/
theorem siIdx_row (n : Fin 8) (c : Fin 64) (p q : Fin 256) (h : List.idxOf (2 : Fin 4) (GatherDims.startIndexMap G) < (GatherDims.startIndexMap G).length) :
    GatherDims.siIdx G (ix4 n c p q) ⟨List.idxOf (2 : Fin 4) (GatherDims.startIndexMap G), h⟩ = ix4 n p q (0 : Fin 2) := by
  funext b; refine Fin.ext ?_
  match b with
  | ⟨0, _⟩ => rfl
  | ⟨1, _⟩ => rfl
  | ⟨2, _⟩ => rfl
  | ⟨3, _⟩ => rfl

/-- The start-indices index at which result index `(n, c, p, q)` reads the COLUMN component of its start index:
    `(n, p, q, 1)`. -/
theorem siIdx_col (n : Fin 8) (c : Fin 64) (p q : Fin 256) (h : List.idxOf (3 : Fin 4) (GatherDims.startIndexMap G) < (GatherDims.startIndexMap G).length) :
    GatherDims.siIdx G (ix4 n c p q) ⟨List.idxOf (3 : Fin 4) (GatherDims.startIndexMap G), h⟩ = ix4 n p q (1 : Fin 2) := by
  funext b; refine Fin.ext ?_
  match b with
  | ⟨0, _⟩ => rfl
  | ⟨1, _⟩ => rfl
  | ⟨2, _⟩ => rfl
  | ⟨3, _⟩ => rfl

/-- On the batching axis the operand index is the batch coordinate `n`: no start, no offset. -/
theorem operandIdx_batch (idx : IVec S8x256x256x2 32) (n : Fin 8) (c : Fin 64) (p q : Fin 256) :
    (GatherDims.operandIdx G (ix4 n c p q) idx (0 : Fin 4)).val = n.val := by
  show GatherDims.start G (ix4 n c p q) idx (0 : Fin 4) + GatherDims.batchCoord G (ix4 n c p q) (0 : Fin 4)
    + GatherDims.offCoord G (ix4 n c p q) (0 : Fin 4) = _
  rw [GatherDims.start_batching G _ _ _ (by decide), GatherDims.offCoord_eq_zero G _ _ (by decide),
    Nat.zero_add, Nat.add_zero]
  rfl

/-- On the offset axis the operand index is the offset coordinate `c`: no start, no batch coordinate. -/
theorem operandIdx_offset (idx : IVec S8x256x256x2 32) (n : Fin 8) (c : Fin 64) (p q : Fin 256) :
    (GatherDims.operandIdx G (ix4 n c p q) idx (1 : Fin 4)).val = c.val := by
  show GatherDims.start G (ix4 n c p q) idx (1 : Fin 4) + GatherDims.batchCoord G (ix4 n c p q) (1 : Fin 4)
    + GatherDims.offCoord G (ix4 n c p q) (1 : Fin 4) = _
  rw [GatherDims.batchCoord_eq_zero G _ _ (by decide), Nat.add_zero]
  unfold GatherDims.start
  rw [dif_neg (show (1 : Fin 4) ∉ GatherDims.startIndexMap G by decide), Nat.zero_add]
  rfl

/-- On the row axis the operand index is the row component of the start index, read signed and clamped. -/
theorem operandIdx_row (idx : IVec S8x256x256x2 32) (n : Fin 8) (c : Fin 64) (p q : Fin 256) :
    (GatherDims.operandIdx G (ix4 n c p q) idx (2 : Fin 4)).val = (pick (idx (ix4 n p q (0 : Fin 2)))).val := by
  show GatherDims.start G (ix4 n c p q) idx (2 : Fin 4) + GatherDims.batchCoord G (ix4 n c p q) (2 : Fin 4)
    + GatherDims.offCoord G (ix4 n c p q) (2 : Fin 4) = _
  rw [GatherDims.batchCoord_eq_zero G _ _ (by decide), GatherDims.offCoord_eq_zero G _ _ (by decide),
    Nat.add_zero]
  unfold GatherDims.start
  rw [dif_pos (show (2 : Fin 4) ∈ GatherDims.startIndexMap G by decide), siIdx_row]
  rfl

/-- On the column axis the operand index is the column component of the start index, read signed and clamped. -/
theorem operandIdx_col (idx : IVec S8x256x256x2 32) (n : Fin 8) (c : Fin 64) (p q : Fin 256) :
    (GatherDims.operandIdx G (ix4 n c p q) idx (3 : Fin 4)).val = (pick (idx (ix4 n p q (1 : Fin 2)))).val := by
  show GatherDims.start G (ix4 n c p q) idx (3 : Fin 4) + GatherDims.batchCoord G (ix4 n c p q) (3 : Fin 4)
    + GatherDims.offCoord G (ix4 n c p q) (3 : Fin 4) = _
  rw [GatherDims.batchCoord_eq_zero G _ _ (by decide), GatherDims.offCoord_eq_zero G _ _ (by decide),
    Nat.add_zero]
  unfold GatherDims.start
  rw [dif_pos (show (3 : Fin 4) ∈ GatherDims.startIndexMap G by decide), siIdx_col]
  rfl

/-- THE OPERAND INDEX of result index `(n, c, p, q)`, for any start indices: the batch coordinate `n`, the offset
    coordinate `c`, and on the two collapsed axes the two components of the start index at `(n, p, q)`, each read
    signed and clamped into `[0, 255]`. -/
theorem operandIdx_ix4 (idx : IVec S8x256x256x2 32) (n : Fin 8) (c : Fin 64) (p q : Fin 256) :
    GatherDims.operandIdx G (ix4 n c p q) idx
      = ix4 n c (pick (idx (ix4 n p q (0 : Fin 2)))) (pick (idx (ix4 n p q (1 : Fin 2)))) := by
  funext a; refine Fin.ext ?_
  match a with
  | ⟨0, _⟩ => exact operandIdx_batch idx n c p q
  | ⟨1, _⟩ => exact operandIdx_offset idx n c p q
  | ⟨2, _⟩ => exact operandIdx_row idx n c p q
  | ⟨3, _⟩ => exact operandIdx_col idx n c p q

/-- The gather read at `(n, c, p, q)`, for any start indices. -/
theorem gather_ix4 {α : Type} (x : S8x64x256x256.Idx → α) (idx : IVec S8x256x256x2 32)
    (n : Fin 8) (c : Fin 64) (p q : Fin 256) :
    Host.gather G x idx (ix4 n c p q)
      = x (ix4 n c (pick (idx (ix4 n p q (0 : Fin 2)))) (pick (idx (ix4 n p q (1 : Fin 2))))) := by
  unfold Host.gather
  rw [operandIdx_ix4]

/-- An index array given a trailing unit axis, read at `(n, p, q, 0)`. -/
theorem bcast_unit_apply {β : Type} (v : S8x256x256.Idx → β) (n : Fin 8) (p q : Fin 256) :
    broadcastInDim S8x256x256x1 ![0, 1, 2] Facts₀.bcast_S8x256x256_S8x256x256x1_0_1_2 v (ix4 n p q (0 : Fin 1))
      = v (ix3 n p q) := by
  refine broadcastInDim_apply _ _ v _ (ix3 n p q) (fun a => ?_)
  match a with
  | ⟨0, _⟩ => rfl
  | ⟨1, _⟩ => rfl
  | ⟨2, _⟩ => rfl

/-- The start indices read at last-axis coordinate `0`: the first piece. -/
theorem concat_row_apply {β : Type} (A B : S8x256x256x1.Idx → β) (n : Fin 8) (p q : Fin 256) :
    concatenate S8x256x256x2 3 [⟨S8x256x256x1, A⟩, ⟨S8x256x256x1, B⟩]
        Facts₀.concatenates_S8x256x256x1_S8x256x256x1_S8x256x256x2_d3 (ix4 n p q (0 : Fin 2))
      = A (ix4 n p q (0 : Fin 1)) := by
  refine concatenate_pair_apply_left (t := S8x256x256x2) (s₁ := S8x256x256x1) (s₂ := S8x256x256x1) (3 : Fin 4) A B _ _ rfl
    (ix4 n p q (0 : Fin 1)) (fun b => ?_)
  match b with
  | ⟨0, _⟩ => rfl
  | ⟨1, _⟩ => rfl
  | ⟨2, _⟩ => rfl
  | ⟨3, _⟩ => rfl

/-- The start indices read at last-axis coordinate `1`: the second piece. -/
theorem concat_col_apply {β : Type} (A B : S8x256x256x1.Idx → β) (n : Fin 8) (p q : Fin 256) :
    concatenate S8x256x256x2 3 [⟨S8x256x256x1, A⟩, ⟨S8x256x256x1, B⟩]
        Facts₀.concatenates_S8x256x256x1_S8x256x256x1_S8x256x256x2_d3 (ix4 n p q (1 : Fin 2))
      = B (ix4 n p q (0 : Fin 1)) := by
  refine concatenate_pair_apply_right (t := S8x256x256x2) (s₁ := S8x256x256x1) (s₂ := S8x256x256x1) (3 : Fin 4) A B _ _ rfl rfl
    (ix4 n p q (0 : Fin 1)) (fun b hb => ?_) rfl
  match b, hb with
  | ⟨0, _⟩, _ => rfl
  | ⟨1, _⟩, _ => rfl
  | ⟨2, _⟩, _ => rfl
  | ⟨3, _⟩, hb => exact absurd rfl hb

open Facts₀ in
/-- THE GATHER OF THE REFERENCE READ AT `(n, c, p, q)`: the image at channel `c` of batch `n`, at the row and the
    column the two index arrays name at `(n, p, q)`, each read signed and clamped into `[0, 255]`. -/
theorem gather_pair_apply {α : Type} (x : S8x64x256x256.Idx → α) (iyv ixv : IVec S8x256x256 32)
    (n : Fin 8) (c : Fin 64) (p q : Fin 256) :
    Host.gather gather_S8x64x256x256_S8x256x256x2_S8x64x256x256_1_23_0_0_23_3_16411 x
        (concatenate S8x256x256x2 3
          [⟨S8x256x256x1, broadcastInDim S8x256x256x1 ![0, 1, 2] bcast_S8x256x256_S8x256x256x1_0_1_2 iyv⟩,
           ⟨S8x256x256x1, broadcastInDim S8x256x256x1 ![0, 1, 2] bcast_S8x256x256_S8x256x256x1_0_1_2 ixv⟩]
          concatenates_S8x256x256x1_S8x256x256x1_S8x256x256x2_d3) (ix4 n c p q)
      = x (ix4 n c (pick (iyv (ix3 n p q))) (pick (ixv (ix3 n p q)))) := by
  rw [gather_ix4, concat_row_apply, concat_col_apply, bcast_unit_apply, bcast_unit_apply]

end Cert.RefGather
-- ==== Proof.RefMask.lean ====
import Idealize.ShloMosaic.PureOps.Ideal
import Idealize.ShloMosaic.Lib.ValueIdx

/-!
# Two scalar facts about one-bit masks

The reference turns each corner's "inside the image" condition, a one-bit word, into a float weight `1` or `0`, and
the conditions themselves are conjunctions of four comparisons. Read at the extended reals the conversion of a
one-bit word is exactly `1` when the bit is set and `0` otherwise; and the bitwise "and" is associative and
commutative, so a conjunction of four bits may be regrouped freely.
-/

namespace Cert.RefMask

open Idealize.ShloMosaic

/-- A one-bit word converted unsigned to a float, at the extended reals: `1` if the bit is set, else `0`. -/
theorem uitofp_bit (b : BitVec 1) :
    (FloatOps.uitofp .f32 b : Ideal .f32) = if b = 1#1 then (1 : EReal) else 0 := by
  show ((((b.toNat : ℕ) : ℝ)) : EReal) = _
  rcases BitVec.eq_zero_or_eq_one b with h | h
  · subst h
    rw [if_neg (by decide)]
    simp
  · subst h
    rw [if_pos rfl]
    simp

/-- The vector form: a one-bit mask converted to floats, read at an index. -/
theorem uitofp_bit_apply {s : Shape} (v : IVec s 1) (j : s.Idx) :
    (uitofp .f32 v : FVec Ideal s .f32) j = if v j = 1#1 then (1 : EReal) else 0 :=
  uitofp_bit (v j)

/-- The bitwise "and" of words is associative. -/
theorem andi_assoc {w : Nat} (a b c : BitVec w) :
    IntOp.andi (IntOp.andi a b) c = IntOp.andi a (IntOp.andi b c) :=
  BitVec.and_assoc a b c

/-- The bitwise "and" of words is commutative. -/
theorem andi_comm {w : Nat} (a b : BitVec w) : IntOp.andi a b = IntOp.andi b a :=
  BitVec.and_comm a b

/-- A conjunction of four words taken one at a time is the conjunction of the first two with the last two. -/
theorem andi_four {w : Nat} (a b c d : BitVec w) :
    IntOp.andi (IntOp.andi (IntOp.andi a b) c) d = IntOp.andi (IntOp.andi a b) (IntOp.andi c d) :=
  BitVec.and_assoc (IntOp.andi a b) c d

/-- The conjunction of one-bit words is set exactly when both are. -/
theorem andi_eq_one_iff (a b : BitVec 1) : IntOp.andi a b = 1#1 ↔ a = 1#1 ∧ b = 1#1 := by
  show a &&& b = 1#1 ↔ a = 1#1 ∧ b = 1#1
  rcases BitVec.eq_zero_or_eq_one a with ha | ha <;> rcases BitVec.eq_zero_or_eq_one b with hb | hb <;>
    subst ha <;> subst hb <;> decide

end Cert.RefMask
-- ==== Proof.LibClipIndex.lean ====
import Idealize.ShloMosaic.PureOps.Ideal

/-!
A clipped coordinate is a valid index.

A value clipped to `[0, 255]` over the extended reals — the least of `255` and the
greatest of `0` and `z` — is a real number in `[0, 255]` whatever `z` is (both
infinities included).  Truncating it toward zero gives a 32-bit word whose signed
reading lies in `[0, 255]`.  For such a word: its reading is a natural number below
`256`, it equals the word of a natural `w < 256` exactly when `w` is that number, and
it is not negative, so a "wrap a negative index by adding 256" leaves it unchanged.
-/

noncomputable section

namespace Cert.ClipIndex

open Idealize.ShloMosaic

/-- Clipping to `[0, 255]` lands on a real number in `[0, 255]`. -/
theorem clip_real (z : EReal) :
    ∃ s : ℝ, 0 ≤ s ∧ s ≤ 255 ∧ min ((255 : ℝ) : EReal) (max ((0 : ℝ) : EReal) z) = (s : EReal) := by
  have h0255 : ((0 : ℝ) : EReal) ≤ ((255 : ℝ) : EReal) := EReal.coe_le_coe_iff.mpr (by norm_num)
  induction z using EReal.rec with
  | bot =>
    refine ⟨0, le_refl _, by norm_num, ?_⟩
    rw [max_eq_left bot_le, min_eq_right h0255]
  | coe r =>
    refine ⟨min 255 (max 0 r), le_min (by norm_num) (le_max_left _ _), min_le_left _ _, ?_⟩
    rw [EReal.coe_strictMono.monotone.map_min, EReal.coe_strictMono.monotone.map_max]
  | top =>
    refine ⟨255, by norm_num, le_refl _, ?_⟩
    rw [max_eq_right le_top, min_eq_left le_top]

/-- Truncation of a real number in `[0, 255]` is the word of its floor, which lies in `[0, 255]`. -/
theorem fptosi_real (s : ℝ) (h0 : 0 ≤ s) (h1 : s ≤ 255) :
    (Ideal.fptosi 32 (s : EReal)).toInt = ⌊s⌋ ∧ 0 ≤ ⌊s⌋ ∧ ⌊s⌋ ≤ 255 := by
  have hf0 : 0 ≤ ⌊s⌋ := Int.floor_nonneg.mpr h0
  have hf1 : ⌊s⌋ < 256 := Int.floor_lt.mpr (by push_cast; linarith)
  refine ⟨?_, hf0, by omega⟩
  rw [Ideal.fptosi, Ideal.toIntClamped_coe, if_pos h0, BitVec.toInt_ofInt, Int.bmod_def]
  generalize ⌊s⌋ = n at hf0 hf1
  norm_num
  omega

/-- The clipped coordinate, truncated, reads as an integer in `[0, 255]`. -/
theorem clip_index_range (z : EReal) :
    0 ≤ (Ideal.fptosi 32 (min ((255 : ℝ) : EReal) (max ((0 : ℝ) : EReal) z))).toInt
      ∧ (Ideal.fptosi 32 (min ((255 : ℝ) : EReal) (max ((0 : ℝ) : EReal) z))).toInt ≤ 255 := by
  obtain ⟨s, h0, h1, hs⟩ := clip_real z
  obtain ⟨e, f0, f1⟩ := fptosi_real s h0 h1
  rw [hs, e]
  exact ⟨f0, f1⟩

/-- The same, in the operations' own spelling: the conversion of the least of the float of
    `255` and the greatest of the float of `0` and `z`. -/
theorem clip_index_range_ops (z : Ideal .f32) :
    0 ≤ (FloatOps.fptosi (F := Ideal) 32
          (FloatOps.minimumf (FloatOps.sitofp (F := Ideal) .f32 (255#32 : BitVec 32))
            (FloatOps.maximumf (FloatOps.sitofp (F := Ideal) .f32 (0#32 : BitVec 32)) z))).toInt
      ∧ (FloatOps.fptosi (F := Ideal) 32
          (FloatOps.minimumf (FloatOps.sitofp (F := Ideal) .f32 (255#32 : BitVec 32))
            (FloatOps.maximumf (FloatOps.sitofp (F := Ideal) .f32 (0#32 : BitVec 32)) z))).toInt ≤ 255 := by
  have e : FloatOps.fptosi (F := Ideal) 32
          (FloatOps.minimumf (FloatOps.sitofp (F := Ideal) .f32 (255#32 : BitVec 32))
            (FloatOps.maximumf (FloatOps.sitofp (F := Ideal) .f32 (0#32 : BitVec 32)) z))
        = Ideal.fptosi 32 (min ((255 : ℝ) : EReal) (max ((0 : ℝ) : EReal) z)) := by
    show Ideal.fptosi 32 (min ((((255#32 : BitVec 32).toInt : ℤ) : ℝ) : EReal)
        (max ((((0#32 : BitVec 32).toInt : ℤ) : ℝ) : EReal) z)) = _
    have a : (255#32 : BitVec 32).toInt = 255 := by decide
    have b : (0#32 : BitVec 32).toInt = 0 := by decide
    rw [a, b]
    norm_num
  rw [e]
  exact clip_index_range z

section Word
variable (b : BitVec 32)

/-- A word reading in `[0, 255]`: its reading, as a natural number, is its unsigned value. -/
theorem toNat_of_range (h0 : 0 ≤ b.toInt) (h1 : b.toInt ≤ 255) :
    b.toNat = b.toInt.toNat ∧ b.toInt.toNat < 256 := by
  have hb := b.isLt
  rw [BitVec.toInt_eq_toNat_cond] at h0 h1 ⊢
  split_ifs at h0 h1 ⊢ <;> omega

/-- (i) the reading is below `256`, and capping it at `255` changes nothing. -/
theorem index_lt (h0 : 0 ≤ b.toInt) (h1 : b.toInt ≤ 255) :
    b.toInt.toNat < 256 ∧ min b.toInt.toNat 255 = b.toInt.toNat := by
  have := (toNat_of_range b h0 h1).2
  exact ⟨this, by omega⟩

/-- (ii) the word of `w < 256` is `b` exactly when `w` is `b`'s reading. -/
theorem ofNat_eq_iff (h0 : 0 ≤ b.toInt) (h1 : b.toInt ≤ 255) (w : Fin 256) :
    (BitVec.ofNat 32 w.val = b) ↔ w.val = b.toInt.toNat := by
  obtain ⟨e, hlt⟩ := toNat_of_range b h0 h1
  have hw := w.isLt
  rw [← e, ← BitVec.toNat_inj, BitVec.toNat_ofNat]
  constructor <;> intro h <;> omega

/-- (iii) the word is not negative as a signed number. -/
theorem cmpi_slt_zero (h0 : 0 ≤ b.toInt) :
    IntOp.cmpi .slt b (0#32 : BitVec 32) = 0#1 := by
  have : b.slt (0#32 : BitVec 32) = false := by
    rw [BitVec.slt, decide_eq_false_iff_not]
    have z : (0#32 : BitVec 32).toInt = 0 := by decide
    rw [z]
    omega
  simp only [IntOp.cmpi, this]
  rfl

/-- so wrapping a negative index by adding `256` leaves the word unchanged. -/
theorem select_wrap (h0 : 0 ≤ b.toInt) :
    Scalar.select (IntOp.cmpi .slt b (0#32 : BitVec 32)) (IntOp.addi b (256#32 : BitVec 32)) b = b := by
  rw [cmpi_slt_zero b h0]
  rfl

end Word

end Cert.ClipIndex
-- ==== Proof.RealWeights.lean ====
import proofs.«181516_j61675730370560_1_alg».proof.Proof.Spec
import proofs.«181516_j61675730370560_1_alg».proof.Proof.LibClipIndex
import Idealize.ShloMosaic.PureOps.Ideal

/-!
Over the extended reals, real sampling positions give real bilinear weights.

Every stage of the chain from the positions to the weights — reading a coordinate,
adding, subtracting and multiplying real constants, halving, taking the floor — keeps a
real number real.  So each of the four weights is a real number at every output pixel.
Separately, a clipped coordinate read as a 32-bit integer lies in `[0, 255]`, whatever
the coordinate.
-/

noncomputable section

namespace Cert.GridSample.Real

open Idealize.ShloMosaic Cert.GridSample

/-- Every entry of a field over the output pixels is a real number. -/
def IsReal (v : FVec Ideal SP .f32) : Prop := ∀ j : SP.Idx, ∃ r : ℝ, v j = (r : EReal)

theorem bits_one : Ideal.ofBits .f32 0x3F800000#32 = ((1 : ℝ) : EReal) := by
  simp [Ideal.ofBits, Ideal.ieee]
  norm_cast
  try norm_num

theorem bits_two : Ideal.ofBits .f32 0x40000000#32 = ((2 : ℝ) : EReal) := by
  simp [Ideal.ofBits, Ideal.ieee]
  norm_cast
  try norm_num

theorem bits_256 : Ideal.ofBits .f32 0x43800000#32 = ((256 : ℝ) : EReal) := by
  simp [Ideal.ofBits, Ideal.ieee]
  norm_cast
  try norm_num

/-- A constant field's entry is what its pattern denotes. -/
theorem splat_apply (w : BitVec 32) (j : SP.Idx) : splat (F := Ideal) w j = Ideal.ofBits .f32 w := rfl

theorem isReal_splat {w : BitVec 32} {c : ℝ} (h : Ideal.ofBits .f32 w = (c : EReal)) :
    IsReal (splat (F := Ideal) w) := fun j => ⟨c, (splat_apply w j).trans h⟩

theorem isReal_addf {x y : FVec Ideal SP .f32} (hx : IsReal x) (hy : IsReal y) : IsReal (addf x y) := by
  intro j
  obtain ⟨a, ha⟩ := hx j
  obtain ⟨b, hb⟩ := hy j
  refine ⟨a + b, ?_⟩
  show (x j : EReal) + y j = _
  rw [ha, hb, EReal.coe_add]

theorem isReal_subf {x y : FVec Ideal SP .f32} (hx : IsReal x) (hy : IsReal y) : IsReal (subf x y) := by
  intro j
  obtain ⟨a, ha⟩ := hx j
  obtain ⟨b, hb⟩ := hy j
  refine ⟨a - b, ?_⟩
  show (x j : EReal) - y j = _
  rw [ha, hb, EReal.coe_sub]

theorem isReal_mulf {x y : FVec Ideal SP .f32} (hx : IsReal x) (hy : IsReal y) : IsReal (mulf x y) := by
  intro j
  obtain ⟨a, ha⟩ := hx j
  obtain ⟨b, hb⟩ := hy j
  refine ⟨a * b, ?_⟩
  show (x j : EReal) * y j = _
  rw [ha, hb, EReal.coe_mul]

/-- Halving keeps a real number real. -/
theorem isReal_half {x : FVec Ideal SP .f32} (hx : IsReal x) :
    IsReal (Host.divf x (splat (F := Ideal) 0x40000000#32)) := by
  intro j
  obtain ⟨a, ha⟩ := hx j
  refine ⟨a * (1 / 2), ?_⟩
  show Ideal.div (x j) (Ideal.ofBits .f32 0x40000000#32) = _
  rw [ha, bits_two, Ideal.div_coe (by norm_num : (2 : ℝ) ≠ 0), EReal.coe_mul]

/-- The floor of a real number is a real number. -/
theorem isReal_floor {x : FVec Ideal SP .f32} (hx : IsReal x) : IsReal (Host.floor x) := by
  intro j
  obtain ⟨a, ha⟩ := hx j
  refine ⟨((⌊a⌋ : ℤ) : ℝ), ?_⟩
  show Ideal.liftRound Int.floor (x j) = _
  rw [ha, Ideal.liftRound_coe]

section Stages
variable (g : FVec Ideal SG .f32) (hg : ∀ i, ∃ r : ℝ, g i = (r : EReal))
include hg

theorem isReal_gx : IsReal (gx (F := Ideal) g) := fun _ => hg _
theorem isReal_gy : IsReal (gy (F := Ideal) g) := fun _ => hg _

omit hg in
theorem isReal_unnorm {z : FVec Ideal SP .f32} (hz : IsReal z) : IsReal (unnorm (F := Ideal) z) :=
  isReal_half (isReal_subf (isReal_mulf (isReal_addf hz (isReal_splat bits_one)) (isReal_splat bits_256))
    (isReal_splat bits_one))

theorem isReal_ix : IsReal (ix (F := Ideal) g) := isReal_unnorm (isReal_gx g hg)
theorem isReal_iy : IsReal (iy (F := Ideal) g) := isReal_unnorm (isReal_gy g hg)
theorem isReal_ix0 : IsReal (ix0 (F := Ideal) g) := isReal_floor (isReal_ix g hg)
theorem isReal_iy0 : IsReal (iy0 (F := Ideal) g) := isReal_floor (isReal_iy g hg)
theorem isReal_ix1 : IsReal (ix1 (F := Ideal) g) := isReal_addf (isReal_ix0 g hg) (isReal_splat bits_one)
theorem isReal_iy1 : IsReal (iy1 (F := Ideal) g) := isReal_addf (isReal_iy0 g hg) (isReal_splat bits_one)

theorem wa_real (j : SP.Idx) : ∃ r : ℝ, wa (F := Ideal) g j = (r : EReal) :=
  isReal_mulf (isReal_subf (isReal_ix1 g hg) (isReal_ix g hg)) (isReal_subf (isReal_iy1 g hg) (isReal_iy g hg)) j
theorem wb_real (j : SP.Idx) : ∃ r : ℝ, wb (F := Ideal) g j = (r : EReal) :=
  isReal_mulf (isReal_subf (isReal_ix1 g hg) (isReal_ix g hg)) (isReal_subf (isReal_iy g hg) (isReal_iy0 g hg)) j
theorem wc_real (j : SP.Idx) : ∃ r : ℝ, wc (F := Ideal) g j = (r : EReal) :=
  isReal_mulf (isReal_subf (isReal_ix g hg) (isReal_ix0 g hg)) (isReal_subf (isReal_iy1 g hg) (isReal_iy g hg)) j
theorem wd_real (j : SP.Idx) : ∃ r : ℝ, wd (F := Ideal) g j = (r : EReal) :=
  isReal_mulf (isReal_subf (isReal_ix g hg) (isReal_ix0 g hg)) (isReal_subf (isReal_iy g hg) (isReal_iy0 g hg)) j

end Stages

/-- The index actually used lies in `[0, 255]`. -/
theorem clipIdx_range (z : FVec Ideal SP .f32) (j : SP.Idx) :
    0 ≤ (clipIdx (F := Ideal) z j).toInt ∧ (clipIdx (F := Ideal) z j).toInt ≤ 255 :=
  Cert.ClipIndex.clip_index_range_ops (z j)

end Cert.GridSample.Real
-- ==== Proof.RefPoint.lean ====
import proofs.«181516_j61675730370560_1_alg».proof.Proof.RefSpec
import proofs.«181516_j61675730370560_1_alg».proof.Proof.Spec
import proofs.«181516_j61675730370560_1_alg».proof.Proof.RefGather
import proofs.«181516_j61675730370560_1_alg».proof.Proof.RefMask
import proofs.«181516_j61675730370560_1_alg».proof.Proof.LibClipIndex
import proofs.«181516_j61675730370560_1_alg».proof.Proof.RealWeights

/-!
# The reference read at one entry

The reference computes, for every output pixel `(n, p, q)`, the pixel coordinates `(ix, iy)` of the sampling position,
the four neighbouring pixels `(ix0, iy0)`, `(ix0, iy1)`, `(ix1, iy0)`, `(ix1, iy1)` and their bilinear weights
`wa, wb, wc, wd`; for each neighbour it gathers the image at the clipped coordinates, multiplies by the bit "the
neighbour is inside the image" turned into `1` or `0`, then by the weight, and adds the four products.

Here the reference's result, stated as one term over that chain (`refResult`), is read
at one entry `(n, c, p, q)` over the extended reals: the gather reads the image at the row and column the clipped
coordinates name (a clipped coordinate is never negative, so the wrap of negative indices does nothing), the
conjunction of four comparisons regroups as "x inside and y inside", and a per-pixel field given to every channel
reads at `(n, p, q)`.
-/

noncomputable section

namespace Cert.RefPoint

open Cert.ReferenceIdeal Cert.GridSample Cert.RefGather Idealize.ShloMosaic
  Idealize.ShloMosaic.ValueIdx

/-! ## The pieces of a corner's term, over any float instance -/

section Pieces
variable {F : FTy → Type} [FloatOps F]

/-- The conjunction of a corner's four comparisons, at a pixel: x inside and y inside. -/
theorem mask4_apply (zx zy : FVec F SP .f32) (j : SP.Idx) :
    mask4 zx zy j = IntOp.andi (inside zx j) (inside zy j) :=
  Cert.RefMask.andi_four (ge0 zx j) (le255 zx j) (ge0 zy j) (le255 zy j)

/-- A per-pixel field given to every channel, read at `(n, c, p, q)`: the field at `(n, p, q)`. -/
theorem chan_apply {β : Type} (v : SP.Idx → β) (n : Fin 8) (c : Fin 64) (p q : Fin 256) :
    chan v (ix4 n c p q) = v (ix3 n p q) := by
  unfold chan
  refine (broadcastInDim_apply _ _ _ (ix4 n c p q) (ix4 n (0 : Fin 1) p q) (fun a => ?_)).trans
    (broadcastInDim_apply _ _ v (ix4 n (0 : Fin 1) p q) (ix3 n p q) (fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

end Pieces

/-! ## Read at one entry, over the extended reals -/

section AtIdeal

/-- A clipped coordinate is never negative, so wrapping negative indices leaves it as it is. -/
theorem wrapIdx_clipIdx (z : FVec Ideal SP .f32) (j : SP.Idx) :
    wrapIdx (clipIdx (F := Ideal) z) j = clipIdx (F := Ideal) z j :=
  Cert.ClipIndex.select_wrap (clipIdx (F := Ideal) z j) (Cert.GridSample.Real.clipIdx_range z j).1

/-- ONE CORNER'S TERM READ AT `(n, c, p, q)`: the image at channel `c` of batch `n`, at the clipped row and column of
    the corner at `(n, p, q)`, times `1` if the corner is inside the image and `0` if not. -/
theorem corner_apply (x0 : FVec Ideal SX .f32) (zx zy : FVec Ideal SP .f32) (n : Fin 8) (c : Fin 64) (p q : Fin 256) :
    corner (F := Ideal) x0 zx zy (ix4 n c p q)
      = x0 (ix4 n c (pick (clipIdx (F := Ideal) zy (ix3 n p q))) (pick (clipIdx (F := Ideal) zx (ix3 n p q))))
        * (if IntOp.andi (inside zx (ix3 n p q)) (inside zy (ix3 n p q)) = 1#1 then (1 : EReal) else 0) := by
  unfold corner
  rw [mulf_apply, gather_pair_apply, chan_apply, Cert.RefMask.uitofp_bit_apply, mask4_apply, wrapIdx_clipIdx,
    wrapIdx_clipIdx]

/-- THE REFERENCE READ AT `(n, c, p, q)`: the four neighbouring pixels of the sampling position at `(n, p, q)`, each
    taken at its clipped coordinates and counted only if it is inside the image, weighted bilinearly. -/
theorem ref_apply (x0 : FVec Ideal Cert.ReferenceIdeal.S8x64x256x256 .f32)
    (g : FVec Ideal Cert.ReferenceIdeal.S8x256x256x2 .f32) (n : Fin 8) (c : Fin 64) (p q : Fin 256) :
    refResult (F := Ideal) x0 g (ix4 n c p q)
      = (((x0 (ix4 n c (pick (clipIdx (iy0 g) (ix3 n p q))) (pick (clipIdx (ix0 g) (ix3 n p q))))
              * (if IntOp.andi (inside (ix0 g) (ix3 n p q)) (inside (iy0 g) (ix3 n p q)) = 1#1 then (1 : EReal) else 0))
            * wa g (ix3 n p q)
          + (x0 (ix4 n c (pick (clipIdx (iy1 g) (ix3 n p q))) (pick (clipIdx (ix0 g) (ix3 n p q))))
              * (if IntOp.andi (inside (ix0 g) (ix3 n p q)) (inside (iy1 g) (ix3 n p q)) = 1#1 then (1 : EReal) else 0))
            * wb g (ix3 n p q))
          + (x0 (ix4 n c (pick (clipIdx (iy0 g) (ix3 n p q))) (pick (clipIdx (ix1 g) (ix3 n p q))))
              * (if IntOp.andi (inside (ix1 g) (ix3 n p q)) (inside (iy0 g) (ix3 n p q)) = 1#1 then (1 : EReal) else 0))
            * wc g (ix3 n p q))
        + (x0 (ix4 n c (pick (clipIdx (iy1 g) (ix3 n p q))) (pick (clipIdx (ix1 g) (ix3 n p q))))
              * (if IntOp.andi (inside (ix1 g) (ix3 n p q)) (inside (iy1 g) (ix3 n p q)) = 1#1 then (1 : EReal) else 0))
            * wd g (ix3 n p q) := by
  unfold refResult
  simp only [addf_apply, mulf_apply]
  rw [corner_apply, corner_apply, corner_apply, corner_apply, chan_apply, chan_apply, chan_apply, chan_apply]

end AtIdeal

end Cert.RefPoint

end
-- ==== Proof.LibOneHotBilinear.lean ====
import Mathlib.Data.EReal.Inv
import Mathlib.Algebra.BigOperators.Ring.Finset
import Mathlib.Algebra.BigOperators.Fin

/-!
One-hot selection as a sum, over the extended reals.

A sum of `f w` against the indicator of `w = k` picks out `f k`.  A bilinear
interpolation written as two "one-hot matrix products" (a column selection by an
indicator in `w`, then a weighted row selection by indicators in `h`) is the usual
four-corner combination.  The entries are real numbers: the join of the row
selection uses distributivity, which fails at infinities, and the two selected rows
may coincide.
-/

open scoped BigOperators

namespace Cert.OneHotBilinear

/-- Summing `f` against the indicator of `k` selects `f k`. -/
theorem sum_mul_onehot {n : Nat} (f : Fin n → EReal) (k : Fin n) :
    ∑ w : Fin n, f w * (if w = k then (1 : EReal) else 0) = f k := by
  have h : ∀ w : Fin n, f w * (if w = k then (1 : EReal) else 0) = if w = k then f w else 0 := by
    intro w
    split_ifs <;> simp
  simp only [h]
  simp

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One summand of the weighted row selection is the coercion of a real number. -/
theorem term_coe (v a b : ℝ) (p q : Prop) [Decidable p] [Decidable q] :
    (v : EReal) * ((if p then (1 : EReal) else 0) * (a : EReal)
        + (if q then (1 : EReal) else 0) * (b : EReal))
      = ((v * ((if p then (1 : ℝ) else 0) * a + (if q then (1 : ℝ) else 0) * b) : ℝ) : EReal) := by
  split_ifs <;> simp [EReal.coe_mul, EReal.coe_add]

/-- The weighted row selection in the reals: two indicator sums. -/
theorem real_rows {H : Nat} (v : Fin H → ℝ) (y0 y1 : Fin H) (a b : ℝ) :
    ∑ h : Fin H, v h * ((if h = y0 then (1 : ℝ) else 0) * a + (if h = y1 then (1 : ℝ) else 0) * b)
      = v y0 * a + v y1 * b := by
  simp [mul_add, Finset.sum_add_distrib]

/-- The weighted row selection over the extended reals, for real entries. -/
theorem rows_onehot {H : Nat} (v : Fin H → ℝ) (y0 y1 : Fin H) (a b : ℝ) :
    ∑ h : Fin H, (v h : EReal) * ((if h = y0 then (1 : EReal) else 0) * (a : EReal)
        + (if h = y1 then (1 : EReal) else 0) * (b : EReal))
      = ((v y0 * a + v y1 * b : ℝ) : EReal) := by
  simp only [term_coe]
  rw [← coe_sum, real_rows]

/-- Bilinear interpolation by one-hot products equals the four-corner combination. -/
theorem bilinear_onehot {H W : Nat} (x : Fin H → Fin W → ℝ) (x0 x1 : Fin W) (y0 y1 : Fin H)
    (a b c d : ℝ) :
      (∑ h : Fin H, (∑ w : Fin W, (x h w : EReal) * (if w = x0 then (1 : EReal) else 0))
          * ((if h = y0 then (1 : EReal) else 0) * (a : EReal)
            + (if h = y1 then (1 : EReal) else 0) * (b : EReal)))
    + (∑ h : Fin H, (∑ w : Fin W, (x h w : EReal) * (if w = x1 then (1 : EReal) else 0))
          * ((if h = y0 then (1 : EReal) else 0) * (c : EReal)
            + (if h = y1 then (1 : EReal) else 0) * (d : EReal)))
    = ((((x y0 x0 : ℝ) : EReal) * a + ((x y1 x0 : ℝ) : EReal) * b)
        + ((x y0 x1 : ℝ) : EReal) * c) + ((x y1 x1 : ℝ) : EReal) * d := by
  have e0 : ∀ h : Fin H,
      (∑ w : Fin W, (x h w : EReal) * (if w = x0 then (1 : EReal) else 0)) = (x h x0 : EReal) :=
    fun h => sum_mul_onehot (fun w => (x h w : EReal)) x0
  have e1 : ∀ h : Fin H,
      (∑ w : Fin W, (x h w : EReal) * (if w = x1 then (1 : EReal) else 0)) = (x h x1 : EReal) :=
    fun h => sum_mul_onehot (fun w => (x h w : EReal)) x1
  simp only [e0, e1]
  rw [rows_onehot (fun h => x h x0) y0 y1 a b, rows_onehot (fun h => x h x1) y0 y1 c d]
  simp only [EReal.coe_add, EReal.coe_mul]
  simp only [add_assoc]

/-- A masked entry times a weight is the entry times the masked weight. -/
theorem masked (x w : ℝ) (u : Bool) :
    ((x : EReal) * (if u then 1 else 0)) * (w : EReal)
      = (x : EReal) * (if u then (w : EReal) else 0) := by
  cases u <;> simp

end Cert.OneHotBilinear
-- ==== Proof.LibCornerLaw.lean ====
import proofs.«181516_j61675730370560_1_alg».proof.Proof.LibOneHotBilinear
import proofs.«181516_j61675730370560_1_alg».proof.Proof.LibClipIndex
import Idealize.ShloMosaic.PureOps.Ideal

/-!
The per-entry law joining a double one-hot sum to four corner terms.

An index word reading in `[0, 255]` selects one row (or column) of a 256 × 256 array.
Comparing every row number with the word gives a 0/1 vector, the indicator of the
selected row.  A sum over rows and columns of the array's entries against two column
indicators and two weighted row indicators is then the combination of the four entries
at the selected rows and columns; a weight switched off by a mask bit is the weight
zero, which is the same as switching off the entry.
-/

open scoped BigOperators

noncomputable section

namespace Cert.CornerLaw

open Idealize.ShloMosaic

/-- The 0/1 comparison of a row or column number with an index word, as a number. -/
def oh (w : Fin 256) (b : BitVec 32) : EReal :=
  FloatOps.sitofp (F := Ideal) .f32 ((IntOp.cmpi .eq (BitVec.ofNat 32 w.val) b).setWidth 32)

/-- The row or column an index word selects: read signed, clamped into `[0, 255]`. -/
def pick (b : BitVec 32) : Fin 256 := ⟨min b.toInt.toNat 255, by omega⟩

/-- For a word reading in `[0, 255]` the selected row is the reading itself. -/
theorem pick_val (b : BitVec 32) (h0 : 0 ≤ b.toInt) (h1 : b.toInt ≤ 255) :
    (pick b).val = b.toInt.toNat := (Cert.ClipIndex.index_lt b h0 h1).2

/-- A row number is the selected one exactly when its word is the index word. -/
theorem eq_pick_iff (w : Fin 256) (b : BitVec 32) (h0 : 0 ≤ b.toInt) (h1 : b.toInt ≤ 255) :
    w = pick b ↔ BitVec.ofNat 32 w.val = b := by
  rw [Cert.ClipIndex.ofNat_eq_iff b h0 h1 w, Fin.ext_iff, pick_val b h0 h1]

/-- The comparison vector is the indicator of the selected row. -/
theorem oh_eq (w : Fin 256) (b : BitVec 32) (h0 : 0 ≤ b.toInt) (h1 : b.toInt ≤ 255) :
    oh w b = if w = pick b then (1 : EReal) else 0 := by
  have key : oh w b = if BitVec.ofNat 32 w.val = b then (1 : EReal) else 0 := by
    unfold oh
    show (((((IntOp.cmpi .eq (BitVec.ofNat 32 w.val) b).setWidth 32).toInt : ℤ) : ℝ) : EReal) = _
    by_cases hb : BitVec.ofNat 32 w.val = b
    · rw [if_pos hb]
      have e : IntOp.cmpi .eq (BitVec.ofNat 32 w.val) b = 1#1 := by simp [IntOp.cmpi, hb]
      have t : ((1#1 : BitVec 1).setWidth 32).toInt = 1 := by decide
      rw [e, t]
      simp
    · rw [if_neg hb]
      have hbeq : (BitVec.ofNat 32 w.val == b) = false := beq_eq_false_iff_ne.mpr hb
      have e : IntOp.cmpi .eq (BitVec.ofNat 32 w.val) b = 0#1 := by simp [IntOp.cmpi, hbeq]
      have t : ((0#1 : BitVec 1).setWidth 32).toInt = 0 := by decide
      rw [e, t]
      simp
  rw [key]
  exact if_congr (eq_pick_iff w b h0 h1).symm rfl rfl

/-- The all-zero pattern denotes zero. -/
theorem bits_zero : Ideal.ofBits .f32 0x00000000#32 = ((0 : ℝ) : EReal) := by
  simp [Ideal.ofBits, Ideal.ieee]

/-- A real weight kept or replaced by zero by a mask bit is a real number. -/
theorem select_coe (m : BitVec 1) (a : ℝ) :
    Scalar.select m (a : EReal) (Ideal.ofBits .f32 0x00000000#32)
      = (((if m = 1#1 then a else 0 : ℝ)) : EReal) := by
  rw [bits_zero]
  rcases BitVec.eq_zero_or_eq_one m with h | h <;> subst h <;> simp [Scalar.select]

/-- Switching off the weight is switching off the entry. -/
theorem term_mask (x a : ℝ) (m : BitVec 1) :
    (x : EReal) * (((if m = 1#1 then a else 0 : ℝ)) : EReal)
      = ((x : EReal) * (if m = 1#1 then (1 : EReal) else 0)) * (a : EReal) := by
  split_ifs <;> simp

/-- The double one-hot sum with masked weights is the four-corner combination with masked entries. -/
theorem corner_law (X : Fin 256 → Fin 256 → ℝ) (bx0 bx1 by0 by1 : BitVec 32)
    (hx0 : 0 ≤ bx0.toInt ∧ bx0.toInt ≤ 255) (hx1 : 0 ≤ bx1.toInt ∧ bx1.toInt ≤ 255)
    (hy0 : 0 ≤ by0.toInt ∧ by0.toInt ≤ 255) (hy1 : 0 ≤ by1.toInt ∧ by1.toInt ≤ 255)
    (a b c d : ℝ) (ma mb mc md : BitVec 1) :
      (∑ h : Fin 256, (∑ w : Fin 256, (X h w : EReal) * oh w bx0)
          * (oh h by0 * Scalar.select ma (a : EReal) (Ideal.ofBits .f32 0x00000000#32)
            + oh h by1 * Scalar.select mb (b : EReal) (Ideal.ofBits .f32 0x00000000#32)))
    + (∑ h : Fin 256, (∑ w : Fin 256, (X h w : EReal) * oh w bx1)
          * (oh h by0 * Scalar.select mc (c : EReal) (Ideal.ofBits .f32 0x00000000#32)
            + oh h by1 * Scalar.select md (d : EReal) (Ideal.ofBits .f32 0x00000000#32)))
    = (((((X (pick by0) (pick bx0) : ℝ) : EReal) * (if ma = 1#1 then (1 : EReal) else 0)) * (a : EReal)
        + (((X (pick by1) (pick bx0) : ℝ) : EReal) * (if mb = 1#1 then (1 : EReal) else 0)) * (b : EReal))
        + (((X (pick by0) (pick bx1) : ℝ) : EReal) * (if mc = 1#1 then (1 : EReal) else 0)) * (c : EReal))
        + (((X (pick by1) (pick bx1) : ℝ) : EReal) * (if md = 1#1 then (1 : EReal) else 0)) * (d : EReal) := by
  simp only [fun w => oh_eq w bx0 hx0.1 hx0.2, fun w => oh_eq w bx1 hx1.1 hx1.2,
    fun w => oh_eq w by0 hy0.1 hy0.2, fun w => oh_eq w by1 hy1.1 hy1.2, select_coe]
  rw [Cert.OneHotBilinear.bilinear_onehot X (pick bx0) (pick bx1) (pick by0) (pick by1)]
  simp only [term_mask]

end Cert.CornerLaw
-- ==== Proof.Bridge.lean ====
/-
  The two programs compute one function.

  At output entry (n, c, p, q) the reference adds four terms, one per neighbouring pixel: the image at the neighbour's
  clipped row and column, times 1 or 0 as the neighbour is inside the image or not, times the neighbour's bilinear
  weight.  The kernel sums, over all image rows h and columns w, the image at (h, w) times a 0/1 factor that is 1 only at
  the neighbour's column, times the sum of 0/1 factors at the two neighbouring rows each with its weight, the weight
  already replaced by zero for a neighbour outside.  A clipped index is a word between 0 and 255, so the 0/1 factors
  pick exactly the entries the reference gathers; the image entries and the weights are real numbers because the inputs
  are finite, and over the reals the kernel's sums collapse to the reference's four terms (distributivity is used when
  the two clipped rows coincide).
-/
import proofs.«181516_j61675730370560_1_alg».proof.Proof.KernelArray
import proofs.«181516_j61675730370560_1_alg».proof.Proof.KernelHost
import proofs.«181516_j61675730370560_1_alg».proof.Proof.RefPoint
import proofs.«181516_j61675730370560_1_alg».proof.Proof.LibCornerLaw
import proofs.«181516_j61675730370560_1_alg».proof.Proof.RealWeights

set_option maxRecDepth 16384

noncomputable section

open scoped BigOperators

namespace Cert.Bridge

open Cert.GridSample Idealize.ShloMosaic Idealize.ShloMosaic.ValueIdx Idealize.SL.Sem Idealize.ShloMosaic.TcCoe

/-- A masked weight at a pixel: the weight where the corner's bit is set, the zero pattern's value where it is not. -/
theorem masked_apply (zx zy w : FVec Ideal SP .f32) (j : SP.Idx) :
    Cert.KernelIdeal.Host.masked zx zy w j
      = Scalar.select (IntOp.andi (inside zx j) (inside zy j)) (w j) (Ideal.ofBits .f32 0x00000000#32) := rfl

/-- THE ALGEBRAIC CORE, over any real image stack and real field of positions: the reference read at `(n, c, p, q)` is
    the double sum the kernel forms there — the image's row of channel `c` against the 0/1 comparison of every column
    with each neighbour's clipped column, times the 0/1 comparisons of every row with the two clipped rows, each with its
    masked weight. The image in the narrower format is the image; the entries and the weights are real numbers. -/
theorem core (x0 : FVec Ideal SX .f32) (g : FVec Ideal SG .f32) (hlt : FTy.bf16.bits < FTy.f32.bits)
    (hX : ∀ i, ∃ r : ℝ, x0 i = (r : EReal)) (hG : ∀ i, ∃ r : ℝ, g i = (r : EReal))
    (n : Fin 8) (cc : Fin 64) (p q : Fin 256) :
    Cert.RefPoint.refResult (F := Ideal) x0 g (ix4 n cc p q)
      = Cert.KernelIdeal.Arr.entry (truncf .bf16 x0 hlt) (clipIdx (ix0 g)) (clipIdx (ix1 g)) (clipIdx (iy0 g)) (clipIdx (iy1 g))
          (Cert.KernelIdeal.Host.masked (ix0 g) (iy0 g) (wa g)) (Cert.KernelIdeal.Host.masked (ix0 g) (iy1 g) (wb g))
          (Cert.KernelIdeal.Host.masked (ix1 g) (iy0 g) (wc g)) (Cert.KernelIdeal.Host.masked (ix1 g) (iy1 g) (wd g))
          n cc p q := by
  rw [Cert.RefPoint.ref_apply]
  unfold Cert.KernelIdeal.Arr.entry
  choose Xr hXr using fun (h w : Fin 256) => hX (ix4 n cc h w)
  obtain ⟨a, ha⟩ := Cert.GridSample.Real.wa_real g hG (ix3 n p q)
  obtain ⟨b, hb⟩ := Cert.GridSample.Real.wb_real g hG (ix3 n p q)
  obtain ⟨c', hc⟩ := Cert.GridSample.Real.wc_real g hG (ix3 n p q)
  obtain ⟨d, hd⟩ := Cert.GridSample.Real.wd_real g hG (ix3 n p q)
  have key := Cert.CornerLaw.corner_law Xr (clipIdx (ix0 g) (ix3 n p q)) (clipIdx (ix1 g) (ix3 n p q))
    (clipIdx (iy0 g) (ix3 n p q)) (clipIdx (iy1 g) (ix3 n p q))
    (Cert.GridSample.Real.clipIdx_range (ix0 g) (ix3 n p q)) (Cert.GridSample.Real.clipIdx_range (ix1 g) (ix3 n p q))
    (Cert.GridSample.Real.clipIdx_range (iy0 g) (ix3 n p q)) (Cert.GridSample.Real.clipIdx_range (iy1 g) (ix3 n p q))
    a b c' d
    (IntOp.andi (inside (ix0 g) (ix3 n p q)) (inside (iy0 g) (ix3 n p q)))
    (IntOp.andi (inside (ix0 g) (ix3 n p q)) (inside (iy1 g) (ix3 n p q)))
    (IntOp.andi (inside (ix1 g) (ix3 n p q)) (inside (iy0 g) (ix3 n p q)))
    (IntOp.andi (inside (ix1 g) (ix3 n p q)) (inside (iy1 g) (ix3 n p q)))
  simp only [truncf_apply, masked_apply, hXr, ha, hb, hc, hd]
  exact key.symm

set_option maxHeartbeats 2000000 in
/-- THE REFERENCE'S RESULT IS THE KERNEL'S WHOLE-ARRAY FUNCTION of the arrays the kernel stages, when the image stack and
    the field of sampling positions hold real numbers. -/
theorem result_eq (m : (ℓ : Loc Cert.KernelIdeal.nD Cert.KernelIdeal.τ Cert.KernelIdeal.sig) → Buf (Elt Ideal) ℓ) (c : Dev Cert.KernelIdeal.nD)
    (hX : ∀ i, ∃ r : ℝ, (m ((c.tc : Thread Cert.KernelIdeal.nD Cert.KernelIdeal.τ).loc Cert.KernelIdeal.main_arg0)) i = (r : EReal))
    (hG : ∀ i, ∃ r : ℝ, (m ((c.tc : Thread Cert.KernelIdeal.nD Cert.KernelIdeal.τ).loc Cert.KernelIdeal.main_arg1)) i = (r : EReal)) :
    Cert.RefPoint.refResult (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      = Cert.KernelIdeal.Arr.KG (Cert.KernelIdeal.Gen.V m c (Pipeline.arrRef Cert.KernelIdeal.spec0 0)) (Cert.KernelIdeal.Gen.V m c (Pipeline.arrRef Cert.KernelIdeal.spec0 1)) (Cert.KernelIdeal.Gen.V m c (Pipeline.arrRef Cert.KernelIdeal.spec0 2)) (Cert.KernelIdeal.Gen.V m c (Pipeline.arrRef Cert.KernelIdeal.spec0 3)) (Cert.KernelIdeal.Gen.V m c (Pipeline.arrRef Cert.KernelIdeal.spec0 4)) (Cert.KernelIdeal.Gen.V m c (Pipeline.arrRef Cert.KernelIdeal.spec0 5)) (Cert.KernelIdeal.Gen.V m c (Pipeline.arrRef Cert.KernelIdeal.spec0 6)) (Cert.KernelIdeal.Gen.V m c (Pipeline.arrRef Cert.KernelIdeal.spec0 7)) (Cert.KernelIdeal.Gen.V m c (Pipeline.arrRef Cert.KernelIdeal.spec0 8)) := by
  funext i
  obtain ⟨n, cc, p, q, rfl⟩ : ∃ (n : Fin 8) (cc : Fin 64) (p q : Fin 256), i = ix4 n cc p q := ⟨i 0, i 1, i 2, i 3, eq_ix4 i⟩
  show _ = Cert.KernelIdeal.Arr.entry (Cert.KernelIdeal.Gen.V m c (Pipeline.arrRef Cert.KernelIdeal.spec0 0)) (Cert.KernelIdeal.Gen.V m c (Pipeline.arrRef Cert.KernelIdeal.spec0 1)) (Cert.KernelIdeal.Gen.V m c (Pipeline.arrRef Cert.KernelIdeal.spec0 2)) (Cert.KernelIdeal.Gen.V m c (Pipeline.arrRef Cert.KernelIdeal.spec0 3)) (Cert.KernelIdeal.Gen.V m c (Pipeline.arrRef Cert.KernelIdeal.spec0 4)) (Cert.KernelIdeal.Gen.V m c (Pipeline.arrRef Cert.KernelIdeal.spec0 5)) (Cert.KernelIdeal.Gen.V m c (Pipeline.arrRef Cert.KernelIdeal.spec0 6)) (Cert.KernelIdeal.Gen.V m c (Pipeline.arrRef Cert.KernelIdeal.spec0 7)) (Cert.KernelIdeal.Gen.V m c (Pipeline.arrRef Cert.KernelIdeal.spec0 8)) n cc p q
  rw [show (Cert.KernelIdeal.Gen.V m c (Pipeline.arrRef Cert.KernelIdeal.spec0 0)) = Cert.KernelIdeal.Gen.V m c Cert.KernelIdeal.main_v74 from rfl, Cert.KernelIdeal.Host.stack,
    show (Cert.KernelIdeal.Gen.V m c (Pipeline.arrRef Cert.KernelIdeal.spec0 1)) = Cert.KernelIdeal.Gen.V m c Cert.KernelIdeal.main_v67 from rfl, Cert.KernelIdeal.Host.col0,
    show (Cert.KernelIdeal.Gen.V m c (Pipeline.arrRef Cert.KernelIdeal.spec0 2)) = Cert.KernelIdeal.Gen.V m c Cert.KernelIdeal.main_v69 from rfl, Cert.KernelIdeal.Host.col1,
    show (Cert.KernelIdeal.Gen.V m c (Pipeline.arrRef Cert.KernelIdeal.spec0 3)) = Cert.KernelIdeal.Gen.V m c Cert.KernelIdeal.main_v71 from rfl, Cert.KernelIdeal.Host.row0,
    show (Cert.KernelIdeal.Gen.V m c (Pipeline.arrRef Cert.KernelIdeal.spec0 4)) = Cert.KernelIdeal.Gen.V m c Cert.KernelIdeal.main_v73 from rfl, Cert.KernelIdeal.Host.row1,
    show (Cert.KernelIdeal.Gen.V m c (Pipeline.arrRef Cert.KernelIdeal.spec0 5)) = Cert.KernelIdeal.Gen.V m c Cert.KernelIdeal.main_v59 from rfl, Cert.KernelIdeal.Host.wgt_a,
    show (Cert.KernelIdeal.Gen.V m c (Pipeline.arrRef Cert.KernelIdeal.spec0 6)) = Cert.KernelIdeal.Gen.V m c Cert.KernelIdeal.main_v61 from rfl, Cert.KernelIdeal.Host.wgt_b,
    show (Cert.KernelIdeal.Gen.V m c (Pipeline.arrRef Cert.KernelIdeal.spec0 7)) = Cert.KernelIdeal.Gen.V m c Cert.KernelIdeal.main_v63 from rfl, Cert.KernelIdeal.Host.wgt_c,
    show (Cert.KernelIdeal.Gen.V m c (Pipeline.arrRef Cert.KernelIdeal.spec0 8)) = Cert.KernelIdeal.Gen.V m c Cert.KernelIdeal.main_v65 from rfl, Cert.KernelIdeal.Host.wgt_d]
  exact core _ _ _ hX hG n cc p q

end Cert.Bridge

end
-- ==== Proof.RealInputs.lean ====
import proofs.«181516_j61675730370560_1_alg».proof.Pre_finite_inputs
import proofs.«181516_j61675730370560_1_alg».proof.Proof.Gen.Pre_finite_inputs
import Idealize.ShloMosaic.Lib.ReduceAll
import Idealize.ShloMosaic.PureOps.Ideal

/-!
The precondition makes every input entry a real number.

The precondition is the conjunction, over both arguments, of "every entry's absolute
value is below plus infinity".  Over the extended reals the absolute value of either
infinity is plus infinity, which is not below itself; so each entry is the coercion of
a real number.
-/

noncomputable section

namespace Cert.RealInputs

open Idealize.ShloMosaic Cert.Pre_finite_inputs

/-- The pattern `0x7F800000` denotes plus infinity. -/
theorem inf_eq_top : Ideal.ofBits .f32 0x7F800000#32 = (⊤ : EReal) := by
  simp [Ideal.ofBits, Ideal.ieee]

/-- An extended real whose absolute value is below plus infinity is a real number. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_eq_top] at h
  unfold Ideal.cmp at h
  induction x using EReal.rec with
  | bot => simp at h
  | coe r => exact ⟨r, rfl⟩
  | top => simp at h

instance : Subsingleton S_.Idx := ⟨fun a b => funext fun d => d.elim0⟩

/-- Under the precondition, every entry of both arguments is a real number. -/
theorem real_of_pre (X : FVec Ideal Cert.Pre_finite_inputs.S8x64x256x256 .f32)
    (G : FVec Ideal Cert.Pre_finite_inputs.S8x256x256x2 .f32)
    (h : Cert.Pre_finite_inputs.fn (F := Ideal) X G = fun _ => 1#1) :
    (∀ i, ∃ r : ℝ, X i = (r : EReal)) ∧ (∀ i, ∃ r : ℝ, G i = (r : EReal)) := by
  have h0 := congrFun h (fun a => a.elim0)
  dsimp only [Cert.Pre_finite_inputs.fn] at h0
  obtain ⟨hX, hG⟩ := IntOp.andi_eq_one.1 h0
  refine ⟨fun i => ?_, fun i => ?_⟩
  · exact real_of_abs_lt (X i) (Host.reduce_andi_all _ _ _ _ _ hX i)
  · exact real_of_abs_lt (G i) (Host.reduce_andi_all _ _ _ _ _ hG i)

end Cert.RealInputs
-- ==== Proof.lean ====
/-
  Bilinear grid sampling: a kernel that gathers by products with 0/1 matrices against a reference that gathers by index.

  Both programs carry every sampling position to pixel coordinates, take the four neighbouring pixels and their bilinear
  weights, and clip the neighbours' coordinates into the image.  The reference then reads the image at each neighbour
  (a gather), multiplies by 1 or 0 as the neighbour is inside the image or not and by its weight, and adds the four
  terms.  The kernel instead multiplies the image rows by a 0/1 matrix that is 1 exactly at the neighbour's column — so
  the product picks that column — and sums over image rows against 0/1 factors at the two neighbouring rows, each
  carrying its weight, already set to zero for a neighbour outside the image.

  At the exact values the two agree entry by entry: a clipped coordinate is a word between 0 and 255, so the 0/1 factors
  select exactly the entries the gather reads; the inputs are finite, so the image entries and the weights are real
  numbers, and over the reals the kernel's double sums collapse to the reference's four terms (distributivity is what
  joins them when the two clipped rows coincide, which is why finiteness is used).

  The kernel's output array is read off its run block by block (what one grid point stores, then the blocks tile the
  array); the arrays it stages are read off the host operations before the launch as stages of the chain the two
  programs share; the reference's result is its run's term, regrouped as four corner terms.  The frames are the
  programs' runs with the results dropped; the idealized kernel is the kernel's own text read at the exact values, so
  nothing is owed for that conjunct.
-/
import proofs.«181516_j61675730370560_1_alg».proof.Defs
import proofs.«181516_j61675730370560_1_alg».proof.Proof.Gen.Kernel
import proofs.«181516_j61675730370560_1_alg».proof.Proof.Gen.Kernel.Skeleton
import proofs.«181516_j61675730370560_1_alg».proof.Proof.Gen.Kernel.Launch
import proofs.«181516_j61675730370560_1_alg».proof.Proof.Gen.Kernel.Points
import proofs.«181516_j61675730370560_1_alg».proof.Proof.Gen.Kernel.Frame
import proofs.«181516_j61675730370560_1_alg».proof.Proof.Gen.KernelIdeal
import proofs.«181516_j61675730370560_1_alg».proof.Proof.Gen.KernelIdeal.Skeleton
import proofs.«181516_j61675730370560_1_alg».proof.Proof.Gen.KernelIdeal.Launch
import proofs.«181516_j61675730370560_1_alg».proof.Proof.Gen.KernelIdeal.Points
import proofs.«181516_j61675730370560_1_alg».proof.Proof.Gen.KernelIdeal.Frame
import proofs.«181516_j61675730370560_1_alg».proof.Proof.Gen.ReferenceIdeal
import proofs.«181516_j61675730370560_1_alg».proof.Proof.Gen.Pre_finite_inputs
import proofs.«181516_j61675730370560_1_alg».proof.Proof.Gen.KernelIdeal.Value
import proofs.«181516_j61675730370560_1_alg».proof.Proof.Gen.ReferenceIdeal.Run
import proofs.«181516_j61675730370560_1_alg».proof.Proof.Gen.ReferenceIdeal.Read
import proofs.«181516_j61675730370560_1_alg».proof.Proof.KernelArray
import proofs.«181516_j61675730370560_1_alg».proof.Proof.RefStages
import proofs.«181516_j61675730370560_1_alg».proof.Proof.Bridge
import proofs.«181516_j61675730370560_1_alg».proof.Proof.RealInputs
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite was applied, nothing is owed. -/
theorem preserves : Cert.preserves_Kernel_KernelIdeal := trivial

/-- Run from memories agreeing on the arguments, finite ones, both programs end with the same output array: the kernel's
    is its whole-array function of the arrays it stages (block by block, the blocks tiling the array), the reference's
    is its four corner terms, and the two are one function of real inputs. -/
theorem algebraic : Cert.algebraic_KernelIdeal_ReferenceIdeal := by
  intro m ρ m' ρ' hpre hagree
  refine ⟨fun c => Cert.KernelIdeal.Arr.KG (Cert.KernelIdeal.Gen.V m c (Pipeline.arrRef Cert.KernelIdeal.spec0 0)) (Cert.KernelIdeal.Gen.V m c (Pipeline.arrRef Cert.KernelIdeal.spec0 1)) (Cert.KernelIdeal.Gen.V m c (Pipeline.arrRef Cert.KernelIdeal.spec0 2)) (Cert.KernelIdeal.Gen.V m c (Pipeline.arrRef Cert.KernelIdeal.spec0 3)) (Cert.KernelIdeal.Gen.V m c (Pipeline.arrRef Cert.KernelIdeal.spec0 4)) (Cert.KernelIdeal.Gen.V m c (Pipeline.arrRef Cert.KernelIdeal.spec0 5)) (Cert.KernelIdeal.Gen.V m c (Pipeline.arrRef Cert.KernelIdeal.spec0 6)) (Cert.KernelIdeal.Gen.V m c (Pipeline.arrRef Cert.KernelIdeal.spec0 7)) (Cert.KernelIdeal.Gen.V m c (Pipeline.arrRef Cert.KernelIdeal.spec0 8)), ?_, ?_⟩
  · exact (θ_run Cert.KernelIdeal.defs _ _).mono (fun r h c => ⟨(h c).1.trans (Cert.KernelIdeal.Arr.final m c), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    obtain ⟨hX, hG⟩ := Cert.RealInputs.real_of_pre _ _ (hpre c)
    rw [Cert.ReferenceIdeal.Read.val_main_v184_eq, (hagree c).1, (hagree c).2, Cert.RefPoint.v184_eq]
    exact Cert.Bridge.result_eq m c hX hG

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
